-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S256 : Shape := ⟨1, ![256]⟩
abbrev S512x256 : Shape := ⟨2, ![512, 256]⟩
abbrev S512 : Shape := ⟨1, ![512]⟩
abbrev S2048x512 : Shape := ⟨2, ![2048, 512]⟩
abbrev S2048 : Shape := ⟨1, ![2048]⟩
abbrev S256x2048 : Shape := ⟨2, ![256, 2048]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_
  bcast_S_S256x2048 : S_.BroadcastsInDim S256x2048 (![] : Fin 0 → Fin S256x2048.rank)
  reducesTo_S256x2048_S_d0_1 : S256x2048.ReducesTo [0, 1] S_

variable [Facts]

def fn_part2 {F : FTy → Type} [FloatOps F] (main_arg7 : FVec F S256x2048 .f32) (main_arg8 : FVec F S256 .f32) (main_v33 : IVec S_ 1) : IVec S_ 1 :=
  let main_v34 : FVec F S256x2048 .f32 := Host.absf main_arg7
  let main_cst_12 : FVec F S_ .f32 := constant S_ .f32 0x7F800000#32
  let main_v35 : FVec F S256x2048 .f32 := broadcastInDim S256x2048 ![] bcast_S_S256x2048 main_cst_12
  let main_v36 : IVec S256x2048 1 := cmpf .olt main_v34 main_v35
  let main_c_13 : IVec S_ 1 := constantI S_ 1 1#1
  let main_v37 : IVec S_ 1 := (fun x v => Host.reduce IntOp.andi x v reducesTo_S256x2048_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg4 : FVec F S512 .f32) (main_arg5 : FVec F S2048x512 .f32) (main_arg6 : FVec F S2048 .f32) (main_arg7 : FVec F S256x2048 .f32) (main_arg8 : FVec F S256 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S2048x512 .f32 := Host.absf main_arg5
  let main_cst_8 : FVec F S_ .f32 := constant S_ .f32 0x7F800000#32
  let main_v25 : FVec F S2048x512 .f32 := broadcastInDim S2048x512 ![] bcast_S_S2048x512 main_cst_8
  let main_v26 : IVec S2048x512 1 := cmpf .olt main_v24 main_v25
  let main_c_9 : IVec S_ 1 := constantI S_ 1 1#1
  let main_v27 : IVec S_ 1 := (fun x v => Host.reduce IntOp.andi x v reducesTo_S2048x512_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_v33

def fn {F : FTy → Type} [FloatOps F] (main_arg0 : FVec F S65536x256 .f32) (main_arg1 : FVec F S256 .f32) (main_arg2 : FVec F S256 .f32) (main_arg3 : FVec F S512x256 .f32) (main_arg4 : FVec F S512 .f32) (main_arg5 : FVec F S2048x512 .f32) (main_arg6 : FVec F S2048 .f32) (main_arg7 : FVec F S256x2048 .f32) (main_arg8 : FVec F S256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_arg7 main_arg8 main_v13 main_v16
-- ==== Kernel.lean ====
abbrev S65536x256 : Shape := ⟨2, ![65536, 256]⟩
abbrev S256 : Shape := ⟨1, ![256]⟩
abbrev S512x256 : Shape := ⟨2, ![512, 256]⟩
abbrev S512 : Shape := ⟨1, ![512]⟩
abbrev S2048x512 : Shape := ⟨2, ![2048, 512]⟩
abbrev S2048 : Shape := ⟨1, ![2048]⟩
abbrev S256x2048 : Shape := ⟨2, ![256, 2048]⟩
abbrev S2x1x256 : Shape := ⟨3, ![2, 1, 256]⟩
abbrev S8192x256 : Shape := ⟨2, ![8192, 256]⟩
abbrev S1x1x256 : Shape := ⟨3, ![1, 1, 256]⟩
abbrev S1x256 : Shape := ⟨2, ![1, 256]⟩
abbrev S_ : Shape := ⟨0, ![]⟩
abbrev S256x512 : Shape := ⟨2, ![256, 512]⟩
abbrev S512x2048 : Shape := ⟨2, ![512, 2048]⟩
abbrev S2048x256 : Shape := ⟨2, ![2048, 256]⟩
abbrev S1x512 : Shape := ⟨2, ![1, 512]⟩
abbrev S1x2048 : Shape := ⟨2, ![1, 2048]⟩
abbrev S2048x2048 : Shape := ⟨2, ![2048, 2048]⟩

abbrev nBuf : Space → Nat
  | .hbm => 44
  | .vmem => 23
  | .smem => 0
  | _ => 0

abbrev bufTy : (tb : Table) → Fin (tcTables nBuf tb) → BufTy
  | .hbm, ⟨0, _⟩ => ⟨S65536x256, .f32⟩
  | .hbm, ⟨1, _⟩ => ⟨S256, .f32⟩
  | .hbm, ⟨2, _⟩ => ⟨S256, .f32⟩
  | .hbm, ⟨3, _⟩ => ⟨S512x256, .f32⟩
  | .hbm, ⟨4, _⟩ => ⟨S512, .f32⟩
  | .hbm, ⟨5, _⟩ => ⟨S2048x512, .f32⟩
  | .hbm, ⟨6, _⟩ => ⟨S2048, .f32⟩
  | .hbm, ⟨7, _⟩ => ⟨S256x2048, .f32⟩
  | .hbm, ⟨8, _⟩ => ⟨S256, .f32⟩
  | .hbm, ⟨9, _⟩ => ⟨S2x1x256, .f32⟩
  | .hbm, ⟨10, _⟩ => ⟨S_, .f32⟩
  | .hbm, ⟨11, _⟩ => ⟨S1x256, .f32⟩
  | .hbm, ⟨12, _⟩ => ⟨S_, .f32⟩
  | .hbm, ⟨13, _⟩ => ⟨S1x256, .f32⟩
  | .hbm, ⟨14, _⟩ => ⟨S1x256, .f32⟩
  | .hbm, ⟨15, _⟩ => ⟨S2x1x256, .f32⟩
  | .hbm, ⟨16, _⟩ => ⟨S_, .f32⟩
  | .hbm, ⟨17, _⟩ => ⟨S1x256, .f32⟩
  | .hbm, ⟨18, _⟩ => ⟨S_, .f32⟩
  | .hbm, ⟨19, _⟩ => ⟨S1x256, .f32⟩
  | .hbm, ⟨20, _⟩ => ⟨S1x256, .f32⟩
  | .hbm, ⟨21, _⟩ => ⟨S_, .f32⟩
  | .hbm, ⟨22, _⟩ => ⟨S1x256, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S_, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S1x256, .f32⟩
  | .hbm, ⟨31, _⟩ => ⟨S1x256, .f32⟩
  | .hbm, ⟨32, _⟩ => ⟨S1x256, .f32⟩
  | .hbm, ⟨33, _⟩ => ⟨S256x512, .f32⟩
  | .hbm, ⟨34, _⟩ => ⟨S256x512, .bf16⟩
  | .hbm, ⟨35, _⟩ => ⟨S512x2048, .f32⟩
  | .hbm, ⟨36, _⟩ => ⟨S512x2048, .bf16⟩
  | .hbm, ⟨37, _⟩ => ⟨S2048x256, .f32⟩
  | .hbm, ⟨38, _⟩ => ⟨S2048x256, .bf16⟩
  | .hbm, ⟨39, _⟩ => ⟨S1x512, .f32⟩
  | .hbm, ⟨40, _⟩ => ⟨S1x2048, .f32⟩
  | .hbm, ⟨41, _⟩ => ⟨S1x256, .f32⟩
  | .hbm, ⟨42, _⟩ => ⟨S65536x256, .f32⟩
  | .hbm, ⟨43, _⟩ => ⟨S65536x256, .f32⟩
  | .local _ .vmem, ⟨0, _⟩ => ⟨S8192x256, .f32⟩
  | .local _ .vmem, ⟨1, _⟩ => ⟨S8192x256, .f32⟩
  | .local _ .vmem, ⟨2, _⟩ => ⟨S1x1x256, .f32⟩
  | .local _ .vmem, ⟨3, _⟩ => ⟨S1x1x256, .f32⟩
  | .local _ .vmem, ⟨4, _⟩ => ⟨S8192x256, .f32⟩
  | .local _ .vmem, ⟨5, _⟩ => ⟨S8192x256, .f32⟩
  | .local _ .vmem, ⟨6, _⟩ => ⟨S1x256, .f32⟩
  | .local _ .vmem, ⟨7, _⟩ => ⟨S1x1x256, .f32⟩
  | .local _ .vmem, ⟨8, _⟩ => ⟨S1x1x256, .f32⟩
  | .local _ .vmem, ⟨9, _⟩ => ⟨S2048x256, .f32⟩
  | .local _ .vmem, ⟨10, _⟩ => ⟨S2048x256, .f32⟩
  | .local _ .vmem, ⟨11, _⟩ => ⟨S1x256, .f32⟩
  | .local _ .vmem, ⟨12, _⟩ => ⟨S1x256, .f32⟩
  | .local _ .vmem, ⟨13, _⟩ => ⟨S256x512, .bf16⟩
  | .local _ .vmem, ⟨14, _⟩ => ⟨S1x512, .f32⟩
  | .local _ .vmem, ⟨15, _⟩ => ⟨S512x2048, .bf16⟩
  | .local _ .vmem, ⟨16, _⟩ => ⟨S1x2048, .f32⟩
  | .local _ .vmem, ⟨17, _⟩ => ⟨S2048x256, .bf16⟩
  | .local _ .vmem, ⟨18, _⟩ => ⟨S1x256, .f32⟩
  | .local _ .vmem, ⟨19, _⟩ => ⟨S2048x256, .f32⟩
  | .local _ .vmem, ⟨20, _⟩ => ⟨S2048x256, .f32⟩
  | .local _ .vmem, ⟨21, _⟩ => ⟨S2048x256, .f32⟩
  | .local _ .vmem, ⟨22, _⟩ => ⟨S2048x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_4 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27_0 : Ref sig .tc := ⟨.hbm, 42, rfl⟩
abbrev main_v27_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg6_0 : Ref sig .tc := ⟨.vmem, 16, rfl⟩
abbrev cc2_stg7_0 : Ref sig .tc := ⟨.vmem, 17, rfl⟩
abbrev cc2_stg8_0 : Ref sig .tc := ⟨.vmem, 18, rfl⟩
abbrev cc2_stg9_0 : Ref sig .tc := ⟨.vmem, 19, rfl⟩
abbrev cc2_stg9_1 : Ref sig .tc := ⟨.vmem, 20, rfl⟩
abbrev cc2_stg10_0 : Ref sig .tc := ⟨.vmem, 21, rfl⟩
abbrev cc2_stg10_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem6_0 : DmaSem sig := 16
abbrev cc2_sem7_0 : DmaSem sig := 17
abbrev cc2_sem8_0 : DmaSem sig := 18
abbrev cc2_sem9_0 : DmaSem sig := 19
abbrev cc2_sem9_1 : DmaSem sig := 20
abbrev cc2_sem10_0 : DmaSem sig := 21
abbrev cc2_sem10_1 : DmaSem sig := 22

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![2, 4], ![false, false]⟩

def cc1_transform_0 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8192x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x512 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S512x2048 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x2048 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S2048x256 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2048x256 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S2048x256 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  inb_S1x1x256_S1x1x256_0_0_0 : ∀ a, (![0, 0, 0] : Fin 3 → Nat) a + S1x1x256.size a ≤ S1x1x256.size a
  h_S1x1x256 : 0 < S1x1x256.numel
  inb_S8192x256_S8192x256_0_0 : ∀ a, (![0, 0] : Fin 2 → Nat) a + S8192x256.size a ≤ S8192x256.size a
  h_S8192x256 : 0 < S8192x256.numel
  reduces_S8192x256_S256 : S8192x256.Reduces [0] S256
  shapeCasts_S256_S1x256 : S256.ShapeCasts S1x256
  shapeCasts_S1x1x256_S1x1x256 : S1x1x256.ShapeCasts S1x1x256
  shapeCasts_S1x256_S1x1x256 : S1x256.ShapeCasts S1x1x256
  reducesTo_S2x1x256_S1x256_d0 : S2x1x256.ReducesTo [0] S1x256
  h_S_ : 0 < S_.numel
  bcast_S_S1x256 : S_.BroadcastsInDim S1x256 (![] : Fin 0 → Fin S1x256.rank)
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8192x256 : S1x256.Broadcasts S8192x256
  transposes_S512x256_S256x512_1_0 : S512x256.Transposes [1, 0] S256x512
  bitsLt_bf16_f32 : FTy.bits .bf16 < FTy.bits .f32
  transposes_S2048x512_S512x2048_1_0 : S2048x512.Transposes [1, 0] S512x2048
  transposes_S256x2048_S2048x256_1_0 : S256x2048.Transposes [1, 0] S2048x256
  shapeCasts_S512_S1x512 : S512.ShapeCasts S1x512
  shapeCasts_S2048_S1x2048 : S2048.ShapeCasts S1x2048
  inb_S2048x256_S2048x256_0_0 : ∀ a, (![0, 0] : Fin 2 → Nat) a + S2048x256.size a ≤ S2048x256.size a
  h_S2048x256 : 0 < S2048x256.numel
  broadcasts_S1x256_S2048x256 : S1x256.Broadcasts S2048x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S2048x2048 : S1x2048.Broadcasts S2048x2048
  shapeCasts_S2048x256_S2048x256 : S2048x256.ShapeCasts S2048x256
  dot_S2048x256_S256x512_S2048x512_1_0_0_1_n_n_wf : DotDims.WF S2048x256 S256x512 S2048x512 [1] [0] [0] [1] [] []
  dot_S2048x512_S512x2048_S2048x2048_1_0_0_1_n_n_wf : DotDims.WF S2048x512 S512x2048 S2048x2048 [1] [0] [0] [1] [] []
  dot_S2048x2048_S2048x256_S2048x256_1_0_0_1_n_n_wf : DotDims.WF S2048x2048 S2048x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S65536x256.size a
  hwx0_0 : ∀ i : grid0.Coords, EltTy.bits .f32 = 32 ∨ (Rect.block (s := S65536x256) S8192x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256.size a ≤ S2x1x256.size a
  hwx0_1 : ∀ i : grid0.Coords, EltTy.bits .f32 = 32 ∨ (Rect.block (s := S2x1x256) S1x1x256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x256.size a ≤ S65536x256.size a
  hwx1_0 : ∀ i : grid1.Coords, EltTy.bits .f32 = 32 ∨ (Rect.block (s := S65536x256) S8192x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x256.size a ≤ S2x1x256.size a
  hwx1_2 : ∀ i : grid1.Coords, EltTy.bits .f32 = 32 ∨ (Rect.block (s := S2x1x256) S1x1x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S65536x256.size a
  hwx2_0 : ∀ i : grid2.Coords, EltTy.bits .f32 = 32 ∨ (Rect.block (s := S65536x256) S2048x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x512.size a ≤ S256x512.size a
  hwx2_3 : ∀ i : grid2.Coords, EltTy.bits .bf16 = 32 ∨ (Rect.block (s := S256x512) S256x512.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S512x2048.size a ≤ S512x2048.size a
  hwx2_5 : ∀ i : grid2.Coords, EltTy.bits .bf16 = 32 ∨ (Rect.block (s := S512x2048) S512x2048.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x2048.size a ≤ S1x2048.size a
  hwx2_6 : ∀ i : grid2.Coords, EltTy.bits .f32 = 32 ∨ (Rect.block (s := S1x2048) S1x2048.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S2048x256.size a ≤ S2048x256.size a
  hwx2_7 : ∀ i : grid2.Coords, EltTy.bits .bf16 = 32 ∨ (Rect.block (s := S2048x256) S2048x256.size (cc2_transform_7 i) (hinb2_7 i)).WholeWords (EltTy.packing .bf16)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x256.size a ≤ S1x256.size a
  hwx2_8 : ∀ i : grid2.Coords, EltTy.bits .f32 = 32 ∨ (Rect.block (s := S1x256) S1x256.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2048x256.size a ≤ S65536x256.size a
  hwx2_9 : ∀ i : grid2.Coords, EltTy.bits .f32 = 32 ∨ (Rect.block (s := S65536x256) S2048x256.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2048x256.size a ≤ S65536x256.size a
  hwx2_10 : ∀ i : grid2.Coords, EltTy.bits .f32 = 32 ∨ (Rect.block (s := S65536x256) S2048x256.size (cc2_transform_10 i) (hinb2_10 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x512_S512x2048_S2048x2048_1_0_0_1_n_n : DotDims S2048x512 S512x2048 S2048x2048 where
  lhsContracting := [1]
  rhsContracting := [0]
  lhsNonContracting := [0]
  rhsNonContracting := [1]
  lhsBatch := []
  rhsBatch := []
  wf := dot_S2048x512_S512x2048_S2048x2048_1_0_0_1_n_n_wf
def dot_S2048x2048_S2048x256_S2048x256_1_0_0_1_n_n : DotDims S2048x2048 S2048x256 S2048x256 where
  lhsContracting := [1]
  rhsContracting := [0]
  lhsNonContracting := [0]
  rhsNonContracting := [1]
  lhsBatch := []
  rhsBatch := []
  wf := dot_S2048x2048_S2048x256_S2048x256_1_0_0_1_n_n_wf

abbrev win0_0 : Pipeline.Window sig grid0 :=
  Pipeline.Window.ofSpec (Memref.whole main_arg0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S8192x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x1x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v17) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S256x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v24) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v21) S512x2048.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v25) S1x2048.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v23) S2048x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v26) S1x256.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v27_0) S2048x256.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v27_1) S2048x256.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S65536x256 : Shape := ⟨2, ![65536, 256]⟩
abbrev S256 : Shape := ⟨1, ![256]⟩
abbrev S512x256 : Shape := ⟨2, ![512, 256]⟩
abbrev S512 : Shape := ⟨1, ![512]⟩
abbrev S2048x512 : Shape := ⟨2, ![2048, 512]⟩
abbrev S2048 : Shape := ⟨1, ![2048]⟩
abbrev S256x2048 : Shape := ⟨2, ![256, 2048]⟩
abbrev S_ : Shape := ⟨0, ![]⟩
abbrev S1x256 : Shape := ⟨2, ![1, 256]⟩
abbrev S256x512 : Shape := ⟨2, ![256, 512]⟩
abbrev S65536x512 : Shape := ⟨2, ![65536, 512]⟩
abbrev S1x512 : Shape := ⟨2, ![1, 512]⟩
abbrev S512x2048 : Shape := ⟨2, ![512, 2048]⟩
abbrev S65536x2048 : Shape := ⟨2, ![65536, 2048]⟩
abbrev S1x2048 : Shape := ⟨2, ![1, 2048]⟩
abbrev S2048x256 : Shape := ⟨2, ![2048, 256]⟩

abbrev nBuf : Space → Nat
  | .hbm => 56
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S256, .f32⟩
  | .hbm, ⟨2, _⟩ => ⟨S256, .f32⟩
  | .hbm, ⟨3, _⟩ => ⟨S512x256, .f32⟩
  | .hbm, ⟨4, _⟩ => ⟨S512, .f32⟩
  | .hbm, ⟨5, _⟩ => ⟨S2048x512, .f32⟩
  | .hbm, ⟨6, _⟩ => ⟨S2048, .f32⟩
  | .hbm, ⟨7, _⟩ => ⟨S256x2048, .f32⟩
  | .hbm, ⟨8, _⟩ => ⟨S256, .f32⟩
  | .hbm, ⟨9, _⟩ => ⟨S_, .f32⟩
  | .hbm, ⟨10, _⟩ => ⟨S256, .f32⟩
  | .hbm, ⟨11, _⟩ => ⟨S_, .f32⟩
  | .hbm, ⟨12, _⟩ => ⟨S256, .f32⟩
  | .hbm, ⟨13, _⟩ => ⟨S256, .f32⟩
  | .hbm, ⟨14, _⟩ => ⟨S1x256, .f32⟩
  | .hbm, ⟨15, _⟩ => ⟨S65536x256, .f32⟩
  | .hbm, ⟨16, _⟩ => ⟨S65536x256, .f32⟩
  | .hbm, ⟨17, _⟩ => ⟨S65536x256, .f32⟩
  | .hbm, ⟨18, _⟩ => ⟨S_, .f32⟩
  | .hbm, ⟨19, _⟩ => ⟨S256, .f32⟩
  | .hbm, ⟨20, _⟩ => ⟨S_, .f32⟩
  | .hbm, ⟨21, _⟩ => ⟨S256, .f32⟩
  | .hbm, ⟨22, _⟩ => ⟨S256, .f32⟩
  | .hbm, ⟨23, _⟩ => ⟨S1x256, .f32⟩
  | .hbm, ⟨24, _⟩ => ⟨S65536x256, .f32⟩
  | .hbm, ⟨25, _⟩ => ⟨S65536x256, .f32⟩
  | .hbm, ⟨26, _⟩ => ⟨S_, .f32⟩
  | .hbm, ⟨27, _⟩ => ⟨S256, .f32⟩
  | .hbm, ⟨28, _⟩ => ⟨S256, .f32⟩
  | .hbm, ⟨29, _⟩ => ⟨S256, .f32⟩
  | .hbm, ⟨30, _⟩ => ⟨S1x256, .f32⟩
  | .hbm, ⟨31, _⟩ => ⟨S65536x256, .f32⟩
  | .hbm, ⟨32, _⟩ => ⟨S65536x256, .f32⟩
  | .hbm, ⟨33, _⟩ => ⟨S1x256, .f32⟩
  | .hbm, ⟨34, _⟩ => ⟨S65536x256, .f32⟩
  | .hbm, ⟨35, _⟩ => ⟨S65536x256, .f32⟩
  | .hbm, ⟨36, _⟩ => ⟨S1x256, .f32⟩
  | .hbm, ⟨37, _⟩ => ⟨S65536x256, .f32⟩
  | .hbm, ⟨38, _⟩ => ⟨S65536x256, .f32⟩
  | .hbm, ⟨39, _⟩ => ⟨S65536x256, .f32⟩
  | .hbm, ⟨40, _⟩ => ⟨S256x512, .f32⟩
  | .hbm, ⟨41, _⟩ => ⟨S65536x512, .f32⟩
  | .hbm, ⟨42, _⟩ => ⟨S1x512, .f32⟩
  | .hbm, ⟨43, _⟩ => ⟨S65536x512, .f32⟩
  | .hbm, ⟨44, _⟩ => ⟨S65536x512, .f32⟩
  | .hbm, ⟨45, _⟩ => ⟨S512x2048, .f32⟩
  | .hbm, ⟨46, _⟩ => ⟨S65536x2048, .f32⟩
  | .hbm, ⟨47, _⟩ => ⟨S1x2048, .f32⟩
  | .hbm, ⟨48, _⟩ => ⟨S65536x2048, .f32⟩
  | .hbm, ⟨49, _⟩ => ⟨S65536x2048, .f32⟩
  | .hbm, ⟨50, _⟩ => ⟨S2048x256, .f32⟩
  | .hbm, ⟨51, _⟩ => ⟨S65536x256, .f32⟩
  | .hbm, ⟨52, _⟩ => ⟨S1x256, .f32⟩
  | .hbm, ⟨53, _⟩ => ⟨S65536x256, .f32⟩
  | .hbm, ⟨54, _⟩ => ⟨S65536x256, .f32⟩
  | .hbm, ⟨55, _⟩ => ⟨S65536x256, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]

class Facts₀ : Prop where
  reducesTo_S65536x256_S256_d0 : S65536x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  transposes_S512x256_S256x512_1_0 : S512x256.Transposes [1, 0] S256x512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  transposes_S2048x512_S512x2048_1_0 : S2048x512.Transposes [1, 0] S512x2048
  bcast_S2048_S1x2048_1 : S2048.BroadcastsInDim S1x2048 (![1] : Fin 1 → Fin S1x2048.rank)
  bcast_S1x2048_S65536x2048_0_1 : S1x2048.BroadcastsInDim S65536x2048 (![0, 1] : Fin 2 → Fin S65536x2048.rank)
  transposes_S256x2048_S2048x256_1_0 : S256x2048.Transposes [1, 0] S2048x256
  dot_S65536x256_S256x512_S65536x512_1_0_0_1_n_n_wf : DotDims.WF S65536x256 S256x512 S65536x512 [1] [0] [0] [1] [] []
  dot_S65536x512_S512x2048_S65536x2048_1_0_0_1_n_n_wf : DotDims.WF S65536x512 S512x2048 S65536x2048 [1] [0] [0] [1] [] []
  dot_S65536x2048_S2048x256_S65536x256_1_0_0_1_n_n_wf : DotDims.WF S65536x2048 S2048x256 S65536x256 [1] [0] [0] [1] [] []

variable [Facts₀]

def dot_S65536x256_S256x512_S65536x512_1_0_0_1_n_n : DotDims S65536x256 S256x512 S65536x512 where
  lhsContracting := [1]
  rhsContracting := [0]
  lhsNonContracting := [0]
  rhsNonContracting := [1]
  lhsBatch := []
  rhsBatch := []
  wf := dot_S65536x256_S256x512_S65536x512_1_0_0_1_n_n_wf
def dot_S65536x512_S512x2048_S65536x2048_1_0_0_1_n_n : DotDims S65536x512 S512x2048 S65536x2048 where
  lhsContracting := [1]
  rhsContracting := [0]
  lhsNonContracting := [0]
  rhsNonContracting := [1]
  lhsBatch := []
  rhsBatch := []
  wf := dot_S65536x512_S512x2048_S65536x2048_1_0_0_1_n_n_wf
def dot_S65536x2048_S2048x256_S65536x256_1_0_0_1_n_n : DotDims S65536x2048 S2048x256 S65536x256 where
  lhsContracting := [1]
  rhsContracting := [0]
  lhsNonContracting := [0]
  rhsNonContracting := [1]
  lhsBatch := []
  rhsBatch := []
  wf := dot_S65536x2048_S2048x256_S65536x256_1_0_0_1_n_n_wf

class Facts : Prop extends Facts₀ where

variable [Facts]
-- ==== Proof.KernelRun.lean ====
/-
  The kernel's run with its two results named: every weakly fair execution of the program terminates without a fault,
  each result buffer holding what the last boundary's contents give it and every argument array as launched. The
  contents at each boundary are a fold through the program: a stretch of host operations applies them, a call replaces
  its arrays by what its write-backs leave.
-/
import proofs.«159674_j64699387347198_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the launch over the program's five segments, the last thread state read against the final state; the two
    results at the last boundary's contents, each argument walked back through the fold to its launch contents. -/
theorem run_results : θ_run defs (onTc (τ := τ) (main (F := F))) ⟨m, fun _ => 0, ρ⟩ (fun r => ∀ c : Dev nD,
      r.2.mem ((c.tc : Thread nD τ).loc main_v27_0) = W5 m ρ c (Proc.devRef .tc main_v27_0)
      ∧ r.2.mem ((c.tc : Thread nD τ).loc main_v27_1) = W5 m ρ c (Proc.devRef .tc main_v27_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v27_0 (by decide)),
       h c _ (mem_uc main_v27_1 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c)⟩)

end Cert.KernelIdeal.Run

end
-- ==== Proof.Region0.lean ====
/-
  The first accumulating call: per core, the column sums of the core's four 8192-row blocks of x, added block by block
  into one [1,1,256] block that is reset at the core's first block and written back after its fourth.
-/
import proofs.«159674_j64699387347198_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.R0

open Cert.KernelIdeal Cert.KernelIdeal.Gen Idealize.ShloMosaic.ValueIdx

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- Away from a core's first block the body leaves, in the accumulator's buffer holding acc, the payload of the block x
    and acc: its one store covers the buffer and its loads read the whole buffers. -/
theorem out_B (c : Dev nD) (i : grid0.Coords) (a2 : Memref sig .tc .vmem S8192x256 .f32) (h2 : a2.IsWhole)
    (a3 : Memref sig .tc .vmem S1x1x256 .f32) (h3 : a3.IsWhole) (hc : ¬cond0_0 i) (x : Vec F S8192x256 .f32) (acc : Vec F S1x1x256 .f32) :
    out0_B_1 c i a2 h2 a3 h3 hc x acc = k0_pay2 x acc := by
  unfold out0_B_1
  rw [View.read_writes_eq_canon _ _ _ (cover0_B_1 c i a2 h2 a3 h3 hc x acc)]
  unfold kernelRun0_B
  dsimp only
  rw [View.canon_unit_zero hz3]
  simp only [View.readAt_eq_ld, h2.read_unread, h3.read_unread, View.ld_unit_zero (S := S8192x256) hz2, View.ld_unit_zero (S := S1x1x256) hz3]

/-- At a core's first block the body first stores the zero block, reads it back, and leaves the payload of x and zero. -/
theorem out_A (c : Dev nD) (i : grid0.Coords) (a2 : Memref sig .tc .vmem S8192x256 .f32) (h2 : a2.IsWhole)
    (a3 : Memref sig .tc .vmem S1x1x256 .f32) (h3 : a3.IsWhole) (hc : cond0_0 i) (x : Vec F S8192x256 .f32) :
    out0_A_1 c i a2 h2 a3 h3 hc x = k0_pay2 x (k0_pay1 (F := F)) := by
  unfold out0_A_1
  rw [View.read_writes_eq_canon _ _ _ (cover0_A_1 c i a2 h2 a3 h3 hc x)]
  unfold kernelRun0_A
  dsimp only
  sl_unfold_words
  rw [View.canon_cons_unit_zero (S := S1x1x256) hz3, View.readCov_unit_zero (S := S1x1x256) _ hz3]
  simp only [View.readAt_eq_ld, h2.read_unread, View.ld_unit_zero (S := S8192x256) hz2]

/-- A sum over the rows of an [8192,256] block, read at feature d. -/
theorem lane_sum (x : FVec Ideal S8192x256 .f32) (hφ : FKind.Formats FTy.f32) (hacc : (0x00000000#32 : BitVec 32) = 0x00000000#32) (d : Fin 256) :
    multiReduction .add [0] S256 x 0x00000000#32 reduces_S8192x256_S256 hφ hacc (ix1 d) = ∑ p : Fin 8192, x (ix2 p d) := by
  refine (Ideal.multiReduction_add_single x 0x00000000#32 reduces_S8192x256_S256 hφ hacc (ix1 d)).trans ?_
  exact Finset.sum_congr rfl fun k _ => congrArg x (funext fun a => Fin.ext (by match a with | ⟨0, _⟩ => rfl | ⟨1, _⟩ => rfl))

/-- The accumulating payload at feature d: the accumulator's entry plus the block's column sum. -/
theorem pay2_apply (x : Vec Ideal S8192x256 .f32) (acc : Vec Ideal S1x1x256 .f32) (d : Fin 256) :
    k0_pay2 (F := Ideal) x acc (ix3 (0 : Fin 1) (0 : Fin 1) d) = acc (ix3 (0 : Fin 1) (0 : Fin 1) d) + ∑ p : Fin 8192, x (ix2 p d) := by
  unfold k0_pay2
  show shapeCast S1x1x256 acc _ (ix3 (0 : Fin 1) (0 : Fin 1) d) + shapeCast S1x1x256 (shapeCast S1x256 _ _) _ (ix3 (0 : Fin 1) (0 : Fin 1) d) = _
  rw [shapeCast_self]
  refine congrArg (acc (ix3 (0 : Fin 1) (0 : Fin 1) d) + ·) ?_
  refine (shapeCast_ab_1ab_apply _ _ 0 0 d).trans ?_
  refine (shapeCast_a_1a_apply _ _ 0 d).trans ?_
  exact lane_sum _ _ _ d

/-- The reset block is zero everywhere. -/
theorem pay1_apply (i : S1x1x256.Idx) : k0_pay1 (F := Ideal) i = 0 := by
  unfold k0_pay1
  show Ideal.ofBits .f32 0x00000000#32 = 0
  exact Ideal.ofBits_zero_f32

section Sums

variable (V : (c : Dev nD) → (b : Ref sig .tc) → Buf (Elt Ideal) ((c : Thread nD τ).loc b))

/-- Feature d's sum over the rows of x's block at grid position k. -/
def cs (c : Dev nD) (k : ℕ) (hk : k < cfg0.N) (d : Fin 256) : EReal :=
  ∑ p : Fin 8192, (iblk0 V c 0 ⟨k, hk⟩ : Vec Ideal S8192x256 .f32) (ix2 p d)

/-- The running sum the accumulator holds after grid position n: restarted from zero at every fourth position. -/
def accum (c : Dev nD) : (n : ℕ) → n < cfg0.N → Fin 256 → EReal
  | 0, h => fun d => 0 + cs V c 0 h d
  | n + 1, h => fun d =>
    if (n + 1) % 4 = 0 then 0 + cs V c (n + 1) h d else accum c n (Nat.lt_of_succ_lt h) d + cs V c (n + 1) h d

/-- What the accumulator's buffer holds after position n is that running sum, by induction on the position. -/
theorem outsAt_eq (c : Dev nD) : ∀ (n : ℕ) (h : n < cfg0.N) (d : Fin 256),
    outsAt0 V c n h (ix3 (0 : Fin 1) (0 : Fin 1) d) = accum V c n h d
  | 0, h, d =>
    (congrFun ((outsAt0_A V c ⟨0, h⟩ rfl).trans (out_A ..)) _).trans
      ((pay2_apply _ _ d).trans (by rw [pay1_apply]; rfl))
  | n + 1, h, d => by
    by_cases h0 : (n + 1) % 4 = 0
    · refine (congrFun ((outsAt0_A V c ⟨n + 1, h⟩ h0).trans (out_A ..)) _).trans ((pay2_apply _ _ d).trans ?_)
      rw [pay1_apply]; simp only [accum, if_pos h0]; rfl
    · refine (congrFun ((outsAt0_B V c ⟨n + 1, h⟩ h0).trans (out_B ..)) _).trans ((pay2_apply _ _ d).trans ?_)
      show outsAt0 V c n _ _ + _ = _
      rw [outsAt_eq c n]; simp only [accum, if_neg h0]; rfl

end Sums

section Array

variable (V : (c : Dev nD) → (b : Ref sig .tc) → Buf (Elt Ideal) ((c : Thread nD τ).loc b))

/-- The two windows' block indices at grid position t: x's row block is t itself, the accumulator's block the core t / 4. -/
theorem idx_facts : ∀ t : Fin cfg0.N, win0_0.index t (0 : Fin 2) = t.val ∧ win0_0.index t (1 : Fin 2) = 0
    ∧ win0_1.index t (0 : Fin 3) = t.val / 4 ∧ win0_1.index t (1 : Fin 3) = 0 ∧ win0_1.index t (2 : Fin 3) = 0 :=
  (by decide +kernel : ∀ t : Fin grid0.N, _)

/-- x's block at position t read at (p, d) is x at row 8192·t + p. -/
theorem xblk (c : Dev nD) (t : Fin cfg0.N) (p : Fin 8192) (d : Fin 256) :
    (iblk0 V c 0 t : Vec Ideal S8192x256 .f32) (ix2 p d)
      = V c main_arg0 (ix2 (⟨8192 * t.val + p.val, by have := t.isLt; have hN : cfg0.N = 8 := N_0; have := p.isLt; omega⟩ : Fin 65536) d) := by
  unfold iblk0
  rw [View.read_apply]
  show V c main_arg0 _ = V c main_arg0 _
  refine congrArg (V c main_arg0) (funext fun a => Fin.ext ?_)
  obtain ⟨e0, e1, -⟩ := idx_facts t
  match a with
  | ⟨0, _⟩ => show win0_0.index t (0 : Fin 2) * 8192 + 1 * p.val = 8192 * t.val + p.val; omega
  | ⟨1, _⟩ => show win0_0.index t (1 : Fin 2) * 256 + 1 * d.val = d.val; omega

/-- An index of a [1,1,256] block is its last coordinate. -/
theorem idx11 (y : S1x1x256.Idx) : y = ix3 (0 : Fin 1) (0 : Fin 1) (y 2) := funext fun a => by
  match a with
  | ⟨0, _⟩ => exact Fin.ext (by have h : (y 0).val < 1 := (y 0).isLt; show (y 0).val = 0; omega)
  | ⟨1, _⟩ => exact Fin.ext (by have h : (y 1).val < 1 := (y 1).isLt; show (y 1).val = 0; omega)
  | ⟨2, _⟩ => rfl

theorem accum_congr (c : Dev nD) {n n' : ℕ} (h : n < cfg0.N) (h' : n' < cfg0.N) {d d' : Fin 256} (e : n = n') (e' : d = d') :
    accum V c n h d = accum V c n' h' d' := by subst e; subst e'; rfl

/-- The array of per-core sums: entry (a, 0, d) is the running sum after core a's fourth block. -/
def G0 (c : Dev nD) : S2x1x256.Idx → EReal := fun i =>
  accum V c (4 * (i 0).val + 3) (by have h : (i 0).val < 2 := (i 0).isLt; have hN : cfg0.N = 8 := N_0; omega) (i 2)

/-- What a position that writes back (the fourth of a core) writes is that core's block of the array of sums. -/
theorem flushed_eq (c : Dev nD) (t : Fin cfg0.N) (hf : (cfg0.win 1).flush t = true) :
    (dat0 V c).flushed 1 t = ((cfg0.win 1).blk t).view.read (Elt Ideal) (G0 V c) := by
  have h3 : t.val % 4 = 3 := (flush0_1 t).mp hf
  show (cfg0.win 1).cut (grid0.coords t) ((dat0 V c).after 1 t) = _
  rw [after0_1]
  funext y
  rw [View.read_apply]
  obtain ⟨d, rfl⟩ : ∃ d : Fin 256, y = ix3 (0 : Fin 1) (0 : Fin 1) d := ⟨y 2, idx11 y⟩
  show outsAt0 V c t.val t.isLt (ix3 (0 : Fin 1) (0 : Fin 1) d) = G0 V c _
  rw [outsAt_eq]
  unfold G0
  obtain ⟨-, -, e0, e1, e2⟩ := idx_facts t
  refine accum_congr V c _ _ ?_ (Fin.ext ?_)
  · show t.val = 4 * (win0_1.index t (0 : Fin 3) * 1 + 1 * 0) + 3
    omega
  · show d.val = win0_1.index t (2 : Fin 3) * 256 + 1 * d.val
    omega

/-- An index of the array of sums is in position t's block iff each coordinate is in the block's range. -/
theorem mem_blk (t : Fin cfg0.N) (i : S2x1x256.Idx) :
    i ∈ ((cfg0.win 1).blk t).view.set ↔ ∀ a : Fin 3, win0_1.index t a * S1x1x256.size a ≤ (i a).val ∧ (i a).val < win0_1.index t a * S1x1x256.size a + S1x1x256.size a := by
  show i ∈ ((View.whole main_v0).slice (win0_1.rect t)).set ↔ _
  rw [View.set_slice_whole, Rect.mem_set_unit]
  exact Iff.rfl

/-- After the call the array of per-core sums holds, at (a, 0, d), the sum of core a's four column sums of feature d. -/
theorem final0 (c : Dev nD) : (dat0 V c).arrAt 1 cfg0.N = G0 V c :=
  (dat0 V c).arrAt_eq_of_cover 1 (G0 V c) (flushed_eq V c) fun i => by
    have h0 : (i 0).val < 2 := (i 0).isLt
    have h1 : (i 1).val < 1 := (i 1).isLt
    have h2 : (i 2).val < 256 := (i 2).isLt
    have hN : cfg0.N = 8 := N_0
    have hN' : grid0.N = 8 := N_0
    refine ⟨⟨4 * (i 0).val + 3, by omega⟩, (flush0_1 _).mpr (by show (4 * (i 0).val + 3) % 4 = 3; omega), ?_⟩
    rw [mem_blk]
    obtain ⟨-, -, e0, e1, e2⟩ := idx_facts ⟨4 * (i 0).val + 3, by omega⟩
    have e0' : win0_1.index ⟨4 * (i 0).val + 3, by omega⟩ (0 : Fin 3) = (i 0).val := by rw [e0]; show (4 * (i 0).val + 3) / 4 = _; omega
    intro a
    match a with
    | ⟨0, _⟩ => show win0_1.index _ (0 : Fin 3) * 1 ≤ (i 0).val ∧ (i 0).val < win0_1.index _ (0 : Fin 3) * 1 + 1; omega
    | ⟨1, _⟩ => show win0_1.index _ (1 : Fin 3) * 1 ≤ (i 1).val ∧ (i 1).val < win0_1.index _ (1 : Fin 3) * 1 + 1; omega
    | ⟨2, _⟩ => show win0_1.index _ (2 : Fin 3) * 256 ≤ (i 2).val ∧ (i 2).val < win0_1.index _ (2 : Fin 3) * 256 + 256; omega

end Array

section Core

variable (V : (c : Dev nD) → (b : Ref sig .tc) → Buf (Elt Ideal) ((c : Thread nD τ).loc b))

theorem accum_step (c : Dev nD) (n n' : ℕ) (e : n' = n + 1) (h' : n' < cfg0.N) (h0 : ¬ n' % 4 = 0) (d : Fin 256) :
    accum V c n' h' d = accum V c n (by omega) d + cs V c n' h' d := by
  subst e; simp only [accum, if_neg h0]

theorem accum_start (c : Dev nD) (n' : ℕ) (h' : n' < cfg0.N) (h0 : n' % 4 = 0) (d : Fin 256) :
    accum V c n' h' d = 0 + cs V c n' h' d := by
  cases n' with
  | zero => rfl
  | succ n => simp only [accum, if_pos h0]

/-- Core a's entry of the array of sums: zero plus the core's four block sums, in block order. -/
theorem G0_apply (c : Dev nD) (a : Fin 2) (d : Fin 256) :
    G0 V c (ix3 a (0 : Fin 1) d)
      = 0 + cs V c (4 * a.val) (by have := a.isLt; have hN : cfg0.N = 8 := N_0; omega) d
          + cs V c (4 * a.val + 1) (by have := a.isLt; have hN : cfg0.N = 8 := N_0; omega) d
          + cs V c (4 * a.val + 2) (by have := a.isLt; have hN : cfg0.N = 8 := N_0; omega) d
          + cs V c (4 * a.val + 3) (by have := a.isLt; have hN : cfg0.N = 8 := N_0; omega) d := by
  have ha := a.isLt
  have hN : cfg0.N = 8 := N_0
  show accum V c (4 * a.val + 3) _ d = _
  rw [accum_step V c (4 * a.val + 2) (4 * a.val + 3) rfl _ (by omega), accum_step V c (4 * a.val + 1) (4 * a.val + 2) rfl _ (by omega),
    accum_step V c (4 * a.val) (4 * a.val + 1) rfl _ (by omega), accum_start V c (4 * a.val) _ (by omega)]

end Core

section BlockSums

variable (V : (c : Dev nD) → (b : Ref sig .tc) → Buf (Elt Ideal) ((c : Thread nD τ).loc b))

/-- The array x as the call finds it, as a function of its index. -/
abbrev arrX (c : Dev nD) : S65536x256.Idx → EReal := V c main_arg0

/-- A block's column sum in terms of the array x itself: rows 8192·k to 8192·k + 8191. -/
theorem cs_eq (c : Dev nD) (k : ℕ) (hk : k < cfg0.N) (d : Fin 256) :
    cs V c k hk d = ∑ p : Fin 8192, arrX V c (ix2 (⟨8192 * k + p.val, by have hN : cfg0.N = 8 := N_0; have := p.isLt; omega⟩ : Fin 65536) d) := by
  unfold cs
  exact Finset.sum_congr rfl fun p _ => xblk V c ⟨k, hk⟩ p d

end BlockSums

end Cert.KernelIdeal.R0

end
-- ==== Proof.Region1.lean ====
/-
  The second accumulating call: per core, the column sums of the squared deviations (x − mean)² over the core's four
  8192-row blocks of x, added block by block into one [1,1,256] block that is reset at the core's first block and
  written back after its fourth. The mean is a [1,256] array read whole at every block.
-/
import proofs.«159674_j64699387347198_2_alg».proof.Proof.Region0

noncomputable section

open Idealize.ShloMosaic Idealize.ShloMosaic.TcCoe Idealize.SL.Sem
open Idealize.ShloMosaic.Pipeline (Dat)

namespace Cert.KernelIdeal.R1

open Cert.KernelIdeal Cert.KernelIdeal.Gen Idealize.ShloMosaic.ValueIdx
open Cert.KernelIdeal.R0 (hz2 hz3 lane_sum idx11)

variable {F : FTy → Type} [FloatOps F]

/-- Away from a core's first block the body leaves, in the accumulator's buffer holding acc, the payload of the block x,
    the mean mu and acc. -/
theorem out_B (c : Dev nD) (i : grid1.Coords) (a2 : Memref sig .tc .vmem S8192x256 .f32) (h2 : a2.IsWhole)
    (a3 : Memref sig .tc .vmem S1x256 .f32) (h3 : a3.IsWhole) (a4 : Memref sig .tc .vmem S1x1x256 .f32) (h4 : a4.IsWhole)
    (hc : ¬cond1_0 i) (x : Vec F S8192x256 .f32) (mu : Vec F S1x256 .f32) (acc : Vec F S1x1x256 .f32) :
    out1_B_2 c i a2 h2 a3 h3 a4 h4 hc x mu acc = k1_pay2 x mu acc := by
  unfold out1_B_2
  rw [View.read_writes_eq_canon _ _ _ (cover1_B_2 c i a2 h2 a3 h3 a4 h4 hc x mu acc)]
  unfold kernelRun1_B
  dsimp only
  rw [View.canon_unit_zero hz3]
  simp only [View.readAt_eq_ld, h2.read_unread, h3.read_unread, h4.read_unread, View.ld_unit_zero (S := S8192x256) hz2,
    View.ld_unit_zero (S := S1x256) hz2, View.ld_unit_zero (S := S1x1x256) hz3]

/-- At a core's first block the body first stores the zero block, reads it back, and leaves the payload of x, mu and zero. -/
theorem out_A (c : Dev nD) (i : grid1.Coords) (a2 : Memref sig .tc .vmem S8192x256 .f32) (h2 : a2.IsWhole)
    (a3 : Memref sig .tc .vmem S1x256 .f32) (h3 : a3.IsWhole) (a4 : Memref sig .tc .vmem S1x1x256 .f32) (h4 : a4.IsWhole)
    (hc : cond1_0 i) (x : Vec F S8192x256 .f32) (mu : Vec F S1x256 .f32) :
    out1_A_2 c i a2 h2 a3 h3 a4 h4 hc x mu = k1_pay2 x mu (k1_pay1 (F := F)) := by
  unfold out1_A_2
  rw [View.read_writes_eq_canon _ _ _ (cover1_A_2 c i a2 h2 a3 h3 a4 h4 hc x mu)]
  unfold kernelRun1_A
  dsimp only
  sl_unfold_words
  rw [View.canon_cons_unit_zero (S := S1x1x256) hz3, View.readCov_unit_zero (S := S1x1x256) _ hz3]
  simp only [View.readAt_eq_ld, h2.read_unread, h3.read_unread, View.ld_unit_zero (S := S8192x256) hz2, View.ld_unit_zero (S := S1x256) hz2]

/-- The accumulating payload at feature d: the accumulator's entry plus the block's column sum of squared deviations. -/
theorem pay2_apply (x : Vec Ideal S8192x256 .f32) (mu : Vec Ideal S1x256 .f32) (acc : Vec Ideal S1x1x256 .f32) (d : Fin 256) :
    k1_pay2 (F := Ideal) x mu acc (ix3 (0 : Fin 1) (0 : Fin 1) d)
      = acc (ix3 (0 : Fin 1) (0 : Fin 1) d)
        + ∑ p : Fin 8192, (x (ix2 p d) - mu (ix2 (0 : Fin 1) d)) * (x (ix2 p d) - mu (ix2 (0 : Fin 1) d)) := by
  unfold k1_pay2
  show shapeCast S1x1x256 acc _ (ix3 (0 : Fin 1) (0 : Fin 1) d) + shapeCast S1x1x256 (shapeCast S1x256 _ _) _ (ix3 (0 : Fin 1) (0 : Fin 1) d) = _
  rw [shapeCast_self]
  refine congrArg (acc (ix3 (0 : Fin 1) (0 : Fin 1) d) + ·) ?_
  refine (shapeCast_ab_1ab_apply _ _ 0 0 d).trans ?_
  refine (shapeCast_a_1a_apply _ _ 0 d).trans ?_
  refine (lane_sum _ _ _ d).trans ?_
  refine Finset.sum_congr rfl fun p _ => ?_
  show (x (ix2 p d) - broadcastTo S8192x256 (shapeCast S1x256 mu _) _ (ix2 p d)) * (x (ix2 p d) - broadcastTo S8192x256 (shapeCast S1x256 mu _) _ (ix2 p d)) = _
  rw [broadcastTo_1b_ab_apply, shapeCast_self]

/-- The reset block is zero everywhere. -/
theorem pay1_apply (i : S1x1x256.Idx) : k1_pay1 (F := Ideal) i = 0 := by
  unfold k1_pay1
  show Ideal.ofBits .f32 0x00000000#32 = 0
  exact Ideal.ofBits_zero_f32

section Sums

variable (V : (c : Dev nD) → (b : Ref sig .tc) → Buf (Elt Ideal) ((c : Thread nD τ).loc b))

/-- Feature d's sum of squared deviations over the rows of x's block at grid position k. -/
def cs (c : Dev nD) (k : ℕ) (hk : k < cfg1.N) (d : Fin 256) : EReal :=
  let xb : S8192x256.Idx → EReal := iblk1 V c 0 ⟨k, hk⟩
  let mb : S1x256.Idx → EReal := iblk1 V c 1 ⟨k, hk⟩
  ∑ p : Fin 8192, (xb (ix2 p d) - mb (ix2 (0 : Fin 1) d)) * (xb (ix2 p d) - mb (ix2 (0 : Fin 1) d))

/-- The running sum the accumulator holds after grid position n: restarted from zero at every fourth position. -/
def accum (c : Dev nD) : (n : ℕ) → n < cfg1.N → Fin 256 → EReal
  | 0, h => fun d => 0 + cs V c 0 h d
  | n + 1, h => fun d =>
    if (n + 1) % 4 = 0 then 0 + cs V c (n + 1) h d else accum c n (Nat.lt_of_succ_lt h) d + cs V c (n + 1) h d

/-- What the accumulator's buffer holds after position n is that running sum, by induction on the position. -/
theorem outsAt_eq (c : Dev nD) : ∀ (n : ℕ) (h : n < cfg1.N) (d : Fin 256),
    outsAt1 V c n h (ix3 (0 : Fin 1) (0 : Fin 1) d) = accum V c n h d
  | 0, h, d =>
    (congrFun ((outsAt1_A V c ⟨0, h⟩ rfl).trans (out_A ..)) _).trans
      ((pay2_apply _ _ _ d).trans (by rw [pay1_apply]; rfl))
  | n + 1, h, d => by
    by_cases h0 : (n + 1) % 4 = 0
    · refine (congrFun ((outsAt1_A V c ⟨n + 1, h⟩ h0).trans (out_A ..)) _).trans ((pay2_apply _ _ _ d).trans ?_)
      rw [pay1_apply]; simp only [accum, if_pos h0]; rfl
    · refine (congrFun ((outsAt1_B V c ⟨n + 1, h⟩ h0).trans (out_B ..)) _).trans ((pay2_apply _ _ _ d).trans ?_)
      show outsAt1 V c n _ _ + _ = _
      rw [outsAt_eq c n]; simp only [accum, if_neg h0]; rfl

end Sums

section Array

variable (V : (c : Dev nD) → (b : Ref sig .tc) → Buf (Elt Ideal) ((c : Thread nD τ).loc b))

/-- The three windows' block indices at grid position t: x's row block is t, the mean's block never moves, the
    accumulator's block is the core t / 4. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 3) = t.val / 4 ∧ win1_2.index t (1 : Fin 3) = 0 ∧ win1_2.index t (2 : Fin 3) = 0 :=
  (by decide +kernel : ∀ t : Fin grid1.N, _)

/-- x's block at position t read at (p, d) is x at row 8192·t + p. -/
theorem xblk (c : Dev nD) (t : Fin cfg1.N) (p : Fin 8192) (d : Fin 256) :
    (iblk1 V c 0 t : Vec Ideal S8192x256 .f32) (ix2 p d)
      = V c main_arg0 (ix2 (⟨8192 * t.val + p.val, by have := t.isLt; have hN : cfg1.N = 8 := N_1; have := p.isLt; omega⟩ : Fin 65536) d) := by
  unfold iblk1
  rw [View.read_apply]
  show V c main_arg0 _ = V c main_arg0 _
  refine congrArg (V c main_arg0) (funext fun a => Fin.ext ?_)
  obtain ⟨e0, e1, -⟩ := idx_facts t
  match a with
  | ⟨0, _⟩ => show win1_0.index t (0 : Fin 2) * 8192 + 1 * p.val = 8192 * t.val + p.val; omega
  | ⟨1, _⟩ => show win1_0.index t (1 : Fin 2) * 256 + 1 * d.val = d.val; omega

/-- The mean's block at any position is the mean array itself. -/
theorem mblk (c : Dev nD) (t : Fin cfg1.N) (d : Fin 256) :
    (iblk1 V c 1 t : Vec Ideal S1x256 .f32) (ix2 (0 : Fin 1) d) = V c main_v3 (ix2 (0 : Fin 1) d) := by
  unfold iblk1
  rw [View.read_apply]
  show V c main_v3 _ = V c main_v3 _
  refine congrArg (V c main_v3) (funext fun a => Fin.ext ?_)
  obtain ⟨-, -, e0, e1, -⟩ := idx_facts t
  match a with
  | ⟨0, _⟩ => show win1_1.index t (0 : Fin 2) * 1 + 1 * 0 = 0; omega
  | ⟨1, _⟩ => show win1_1.index t (1 : Fin 2) * 256 + 1 * d.val = d.val; omega

theorem accum_congr (c : Dev nD) {n n' : ℕ} (h : n < cfg1.N) (h' : n' < cfg1.N) {d d' : Fin 256} (e : n = n') (e' : d = d') :
    accum V c n h d = accum V c n' h' d' := by subst e; subst e'; rfl

/-- The array of per-core sums of squared deviations: entry (a, 0, d) is the running sum after core a's fourth block. -/
def G1 (c : Dev nD) : S2x1x256.Idx → EReal := fun i =>
  accum V c (4 * (i 0).val + 3) (by have h : (i 0).val < 2 := (i 0).isLt; have hN : cfg1.N = 8 := N_1; omega) (i 2)

/-- What a position that writes back (the fourth of a core) writes is that core's block of the array of sums. -/
theorem flushed_eq (c : Dev nD) (t : Fin cfg1.N) (hf : (cfg1.win 2).flush t = true) :
    (dat1 V c).flushed 2 t = ((cfg1.win 2).blk t).view.read (Elt Ideal) (G1 V c) := by
  have h3 : t.val % 4 = 3 := (flush1_2 t).mp hf
  show (cfg1.win 2).cut (grid1.coords t) ((dat1 V c).after 2 t) = _
  rw [after1_2]
  funext y
  rw [View.read_apply]
  obtain ⟨d, rfl⟩ : ∃ d : Fin 256, y = ix3 (0 : Fin 1) (0 : Fin 1) d := ⟨y 2, idx11 y⟩
  show outsAt1 V c t.val t.isLt (ix3 (0 : Fin 1) (0 : Fin 1) d) = G1 V c _
  rw [outsAt_eq]
  unfold G1
  obtain ⟨-, -, -, -, e0, e1, e2⟩ := idx_facts t
  refine accum_congr V c _ _ ?_ (Fin.ext ?_)
  · show t.val = 4 * (win1_2.index t (0 : Fin 3) * 1 + 1 * 0) + 3
    omega
  · show d.val = win1_2.index t (2 : Fin 3) * 256 + 1 * d.val
    omega

/-- An index of the array of sums is in position t's block iff each coordinate is in the block's range. -/
theorem mem_blk (t : Fin cfg1.N) (i : S2x1x256.Idx) :
    i ∈ ((cfg1.win 2).blk t).view.set ↔ ∀ a : Fin 3, win1_2.index t a * S1x1x256.size a ≤ (i a).val ∧ (i a).val < win1_2.index t a * S1x1x256.size a + S1x1x256.size a := by
  show i ∈ ((View.whole main_v4).slice (win1_2.rect t)).set ↔ _
  rw [View.set_slice_whole, Rect.mem_set_unit]
  exact Iff.rfl

/-- After the call the array holds, at (a, 0, d), the sum of core a's four column sums of squared deviations of feature d. -/
theorem final1 (c : Dev nD) : (dat1 V c).arrAt 2 cfg1.N = G1 V c :=
  (dat1 V c).arrAt_eq_of_cover 2 (G1 V c) (flushed_eq V c) fun i => by
    have h0 : (i 0).val < 2 := (i 0).isLt
    have h1 : (i 1).val < 1 := (i 1).isLt
    have h2 : (i 2).val < 256 := (i 2).isLt
    have hN : cfg1.N = 8 := N_1
    have hN' : grid1.N = 8 := N_1
    refine ⟨⟨4 * (i 0).val + 3, by omega⟩, (flush1_2 _).mpr (by show (4 * (i 0).val + 3) % 4 = 3; omega), ?_⟩
    rw [mem_blk]
    obtain ⟨-, -, -, -, e0, e1, e2⟩ := idx_facts ⟨4 * (i 0).val + 3, by omega⟩
    have e0' : win1_2.index ⟨4 * (i 0).val + 3, by omega⟩ (0 : Fin 3) = (i 0).val := by rw [e0]; show (4 * (i 0).val + 3) / 4 = _; omega
    intro a
    match a with
    | ⟨0, _⟩ => show win1_2.index _ (0 : Fin 3) * 1 ≤ (i 0).val ∧ (i 0).val < win1_2.index _ (0 : Fin 3) * 1 + 1; omega
    | ⟨1, _⟩ => show win1_2.index _ (1 : Fin 3) * 1 ≤ (i 1).val ∧ (i 1).val < win1_2.index _ (1 : Fin 3) * 1 + 1; omega
    | ⟨2, _⟩ => show win1_2.index _ (2 : Fin 3) * 256 ≤ (i 2).val ∧ (i 2).val < win1_2.index _ (2 : Fin 3) * 256 + 256; omega

end Array

section Core

variable (V : (c : Dev nD) → (b : Ref sig .tc) → Buf (Elt Ideal) ((c : Thread nD τ).loc b))

theorem accum_step (c : Dev nD) (n n' : ℕ) (e : n' = n + 1) (h' : n' < cfg1.N) (h0 : ¬ n' % 4 = 0) (d : Fin 256) :
    accum V c n' h' d = accum V c n (by omega) d + cs V c n' h' d := by
  subst e; simp only [accum, if_neg h0]

theorem accum_start (c : Dev nD) (n' : ℕ) (h' : n' < cfg1.N) (h0 : n' % 4 = 0) (d : Fin 256) :
    accum V c n' h' d = 0 + cs V c n' h' d := by
  cases n' with
  | zero => rfl
  | succ n => simp only [accum, if_pos h0]

/-- Core a's entry of the array of sums: zero plus the core's four block sums, in block order. -/
theorem G1_apply (c : Dev nD) (a : Fin 2) (d : Fin 256) :
    G1 V c (ix3 a (0 : Fin 1) d)
      = 0 + cs V c (4 * a.val) (by have := a.isLt; have hN : cfg1.N = 8 := N_1; omega) d
          + cs V c (4 * a.val + 1) (by have := a.isLt; have hN : cfg1.N = 8 := N_1; omega) d
          + cs V c (4 * a.val + 2) (by have := a.isLt; have hN : cfg1.N = 8 := N_1; omega) d
          + cs V c (4 * a.val + 3) (by have := a.isLt; have hN : cfg1.N = 8 := N_1; omega) d := by
  have ha := a.isLt
  have hN : cfg1.N = 8 := N_1
  show accum V c (4 * a.val + 3) _ d = _
  rw [accum_step V c (4 * a.val + 2) (4 * a.val + 3) rfl _ (by omega), accum_step V c (4 * a.val + 1) (4 * a.val + 2) rfl _ (by omega),
    accum_step V c (4 * a.val) (4 * a.val + 1) rfl _ (by omega), accum_start V c (4 * a.val) _ (by omega)]

end Core

section BlockSums

variable (V : (c : Dev nD) → (b : Ref sig .tc) → Buf (Elt Ideal) ((c : Thread nD τ).loc b))

/-- The array x and the mean as the call finds them, as functions of their indices. -/
abbrev arrX (c : Dev nD) : S65536x256.Idx → EReal := V c main_arg0
abbrev arrM (c : Dev nD) : S1x256.Idx → EReal := V c main_v3

/-- A block's sum of squared deviations in terms of the arrays themselves: rows 8192·k to 8192·k + 8191 of x against the mean. -/
theorem cs_eq (c : Dev nD) (k : ℕ) (hk : k < cfg1.N) (d : Fin 256) :
    cs V c k hk d = ∑ p : Fin 8192,
      (arrX V c (ix2 (⟨8192 * k + p.val, by have hN : cfg1.N = 8 := N_1; have := p.isLt; omega⟩ : Fin 65536) d) - arrM V c (ix2 (0 : Fin 1) d))
      * (arrX V c (ix2 (⟨8192 * k + p.val, by have hN : cfg1.N = 8 := N_1; have := p.isLt; omega⟩ : Fin 65536) d) - arrM V c (ix2 (0 : Fin 1) d)) := by
  unfold cs
  refine Finset.sum_congr rfl fun p _ => ?_
  rw [xblk V c ⟨k, hk⟩ p d, mblk V c ⟨k, hk⟩ d]

end BlockSums

end Cert.KernelIdeal.R1

end
-- ==== Proof.Regroup.lean ====
/-
  A sum over 65536 rows, taken as eight consecutive blocks of 8192 rows.

  Row r = 8192·k + p with k < 8 and p < 8192 in exactly one way, so the sum over all rows is the sum over k of the sums
  over block k. Split further into two halves of four blocks, each half accumulated from 0 block by block, the total is
  unchanged: addition on the extended reals is commutative and associative with 0 neutral, and nothing else is used.
-/
import Mathlib.Data.EReal.Basic
import Mathlib.Algebra.BigOperators.Fin
import Mathlib.Algebra.BigOperators.Group.Finset.Basic
import Mathlib.Logic.Equiv.Fin.Basic

noncomputable section

namespace Cert.Spec

open scoped BigOperators

/-- The sum of g over block k: rows 8192·k, …, 8192·k + 8191. -/
def blockSum (g : Fin 65536 → EReal) (k : ℕ) (hk : k < 8) : EReal :=
  ∑ p : Fin 8192, g ⟨8192 * k + p.val, by have := p.isLt; omega⟩

/-- The eight block sums add up to the sum over all rows. -/
theorem sum_blocks (g : Fin 65536 → EReal) : (∑ k : Fin 8, blockSum g k.val k.isLt) = ∑ r : Fin 65536, g r := by
  have e : (∑ x : Fin 8 × Fin 8192, g (finProdFinEquiv x)) = ∑ r : Fin 65536, g r :=
    Equiv.sum_comp (finProdFinEquiv (m := 8) (n := 8192)) g
  rw [← e, Fintype.sum_prod_type]
  refine Finset.sum_congr rfl fun k _ => ?_
  unfold blockSum
  refine Finset.sum_congr rfl fun p _ => ?_
  congr 1
  apply Fin.ext
  simp only [finProdFinEquiv_apply_val]
  omega

/-- Two accumulators, each started from 0 and given four consecutive blocks in order, add up to the sum over all
    rows. -/
theorem two_cores (g : Fin 65536 → EReal) :
    (0 + blockSum g 0 (by omega) + blockSum g 1 (by omega) + blockSum g 2 (by omega) + blockSum g 3 (by omega))
      + (0 + blockSum g 4 (by omega) + blockSum g 5 (by omega) + blockSum g 6 (by omega) + blockSum g 7 (by omega))
      = ∑ r : Fin 65536, g r := by
  rw [← sum_blocks g, Fin.sum_univ_eight]
  simp only [zero_add, add_assoc]
  rfl

end Cert.Spec

end
-- ==== Proof.Spec.lean ====
/-
  The network as one function of its argument arrays, on the extended reals.

  A batch of 65536 rows of 256 features is normalised feature by feature with the batch's own mean and (biased)
  variance, scaled and shifted, and fed through three affine layers (256 → 512 → 2048 → 256); the first result is the
  hyperbolic tangent of the last layer, the second the hyperbolic tangent of the normalised batch itself.

  The normalised entry is written in two arrangements: the direct one, ((x − μ)·s)·γ + β with s = (σ² + ε)^(−1/2), and
  the folded one, x·(s'·γ) + (β − μ·(s'·γ)) with s' = (max(σ², 0) + ε)^(−1/2). They are the same real number whenever
  every entry is real, and need not be otherwise (the fold distributes a product over a difference).
-/
import Idealize.ShloMosaic.PureOps.Ideal
import Idealize.ShloMosaic.Lib.ValueIdx

noncomputable section

namespace Cert.Spec

open Idealize.ShloMosaic

/-- The batch size as the programs spell it: the single-precision word of 65536. -/
def nW : EReal := Ideal.ofBits .f32 0x47800000#32
/-- The variance's guard ε as the programs spell it: the single-precision word nearest 1e-5. -/
def epsW : EReal := Ideal.ofBits .f32 0x3727C5AC#32
/-- The single-precision zero word. -/
def zW : EReal := Ideal.ofBits .f32 0x00000000#32

/-- Feature d's mean over the batch. -/
def mean (x : Fin 65536 → Fin 256 → EReal) (d : Fin 256) : EReal :=
  Ideal.div (∑ r : Fin 65536, x r d) nW

/-- Feature d's biased variance over the batch: the mean of the squared deviations from the mean. -/
def var (x : Fin 65536 → Fin 256 → EReal) (d : Fin 256) : EReal :=
  Ideal.div (∑ r : Fin 65536, (x r d - mean x d) * (x r d - mean x d)) nW

/-- The normalised entry, direct arrangement: ((x − μ)·(σ² + ε)^(−1/2))·γ + β. -/
def xnDirect (x : Fin 65536 → Fin 256 → EReal) (γ β : Fin 256 → EReal) (r : Fin 65536) (d : Fin 256) : EReal :=
  (x r d - mean x d) * Ideal.rsqrt (var x d + epsW) * γ d + β d

/-- The folded scale (max(σ², 0) + ε)^(−1/2)·γ. -/
def scale (x : Fin 65536 → Fin 256 → EReal) (γ : Fin 256 → EReal) (d : Fin 256) : EReal :=
  Ideal.rsqrt (max (var x d) zW + epsW) * γ d

/-- The folded shift β − μ·scale. -/
def shift (x : Fin 65536 → Fin 256 → EReal) (γ β : Fin 256 → EReal) (d : Fin 256) : EReal :=
  β d - mean x d * scale x γ d

/-- The normalised entry, folded arrangement: x·scale + shift. -/
def xnFolded (x : Fin 65536 → Fin 256 → EReal) (γ β : Fin 256 → EReal) (r : Fin 65536) (d : Fin 256) : EReal :=
  x r d * scale x γ d + shift x γ β d

/-- One affine layer on a row: (h·Wᵀ + b) at output feature a, the weight stored as [outputs, inputs]. -/
def layer {k n : Nat} (h : Fin k → EReal) (W : Fin n → Fin k → EReal) (b : Fin n → EReal) (a : Fin n) : EReal :=
  (∑ q : Fin k, h q * W a q) + b a

/-- The three layers on a normalised row, before the final hyperbolic tangent. -/
def logits (h : Fin 256 → EReal) (W1 : Fin 512 → Fin 256 → EReal) (b1 : Fin 512 → EReal)
    (W2 : Fin 2048 → Fin 512 → EReal) (b2 : Fin 2048 → EReal) (Wf : Fin 256 → Fin 2048 → EReal) (bf : Fin 256 → EReal)
    (j : Fin 256) : EReal :=
  layer (layer (layer h W1 b1) W2 b2) Wf bf j

/-- The first result at row r, feature j, from a normalised batch xn. -/
def out (xn : Fin 65536 → Fin 256 → EReal) (W1 : Fin 512 → Fin 256 → EReal) (b1 : Fin 512 → EReal)
    (W2 : Fin 2048 → Fin 512 → EReal) (b2 : Fin 2048 → EReal) (Wf : Fin 256 → Fin 2048 → EReal) (bf : Fin 256 → EReal)
    (r : Fin 65536) (j : Fin 256) : EReal :=
  Ideal.tanh (logits (xn r) W1 b1 W2 b2 Wf bf j)

/-- The second result at row r, feature d. -/
def raw (xn : Fin 65536 → Fin 256 → EReal) (r : Fin 65536) (d : Fin 256) : EReal := Ideal.tanh (xn r d)

/-- An array of a rank-2 literal shape as a function of its two coordinates. -/
abbrev m2 {a b : Nat} (x : (⟨2, ![a, b]⟩ : Shape).Idx → EReal) : Fin a → Fin b → EReal := fun p q => x (ValueIdx.ix2 p q)
/-- An array of a rank-1 literal shape as a function of its coordinate. -/
abbrev m1 {a : Nat} (x : (⟨1, ![a]⟩ : Shape).Idx → EReal) : Fin a → EReal := fun p => x (ValueIdx.ix1 p)

end Cert.Spec

end
-- ==== Proof.Glue1.lean ====
/-
  The contents of the kernel's buffers between its three calls, read back through the program: each argument array is
  still what was launched; the first call leaves the per-core column sums of x and the second the per-core sums of
  squared deviations from the mean, and adding the two cores' entries gives the sums over the whole batch.
-/
import proofs.«159674_j64699387347198_2_alg».proof.Proof.Region1
import proofs.«159674_j64699387347198_2_alg».proof.Proof.Regroup
import proofs.«159674_j64699387347198_2_alg».proof.Proof.Spec
import Idealize.ShloMosaic.Lib.StableHlo.Run

noncomputable section

open Idealize.ShloMosaic Idealize.ShloMosaic.TcCoe Idealize.SL.Sem Idealize.ShloMosaic.StableHlo
open Idealize.ShloMosaic.Pipeline (Dat)

namespace Cert.KernelIdeal.Glue

open Cert.KernelIdeal Cert.KernelIdeal.Gen Idealize.ShloMosaic.ValueIdx

variable (m : (ℓ : Loc nD τ sig) → Buf (Elt Ideal) ℓ) (ρ : Dev nD → PrngReg) (c : Dev nD)

/-- The launched x as a function of its index. -/
abbrev X : S65536x256.Idx → EReal := m ((c : Thread nD τ).loc main_arg0)

/-! ## x is untouched up to each call's entry -/

theorem V0_arg0 : V0 m ρ c main_arg0 = m ((c : Thread nD τ).loc main_arg0) := rfl

theorem W1_arg0 : W1 m ρ c (Proc.devRef .tc main_arg0) = m ((c : Thread nD τ).loc main_arg0) :=
  (W1_arr m ρ c 0).trans (((dat0 (V0 m ρ) c).arrAt_in 0 rfl _).trans (A_eq0 (V0 m ρ) c 0))

theorem V2_arg0 : V2 m ρ c main_arg0 = m ((c : Thread nD τ).loc main_arg0) :=
  (show StableHlo.after hostOps1 (W1 m ρ c) (Proc.devRef .tc main_arg0) = W1 m ρ c (Proc.devRef .tc main_arg0) by after_results).trans
    (W1_arg0 m ρ c)

theorem W3_arg0 : W3 m ρ c (Proc.devRef .tc main_arg0) = m ((c : Thread nD τ).loc main_arg0) :=
  (W3_arr m ρ c 0).trans ((((dat1 (V2 m ρ) c).arrAt_in 0 rfl _).trans (A_eq1 (V2 m ρ) c 0)).trans (V2_arg0 m ρ c))

theorem V4_arg0 : V4 m ρ c main_arg0 = m ((c : Thread nD τ).loc main_arg0) :=
  (show StableHlo.after hostOps2 (W3 m ρ c) (Proc.devRef .tc main_arg0) = W3 m ρ c (Proc.devRef .tc main_arg0) by after_results).trans
    (W3_arg0 m ρ c)

/-! ## The first call's array and the whole-batch column sums -/

theorem W1_v0 : W1 m ρ c (Proc.devRef .tc main_v0) = R0.G0 (V0 m ρ) c :=
  (W1_arr m ρ c 1).trans (R0.final0 (V0 m ρ) c)

/-- The two cores' entries of the first call's array add up to feature d's sum over all 65536 rows. -/
theorem sum0 (d : Fin 256) :
    R0.G0 (V0 m ρ) c (ix3 (0 : Fin 2) (0 : Fin 1) d) + R0.G0 (V0 m ρ) c (ix3 (1 : Fin 2) (0 : Fin 1) d)
      = ∑ r : Fin 65536, X m c (ix2 r d) := by
  rw [R0.G0_apply, R0.G0_apply]
  simp only [R0.cs_eq]
  exact Spec.two_cores (fun r => X m c (ix2 r d))

/-! ## The second call's array and the whole-batch sums of squared deviations -/

theorem W3_v4 : W3 m ρ c (Proc.devRef .tc main_v4) = R1.G1 (V2 m ρ) c :=
  (W3_arr m ρ c 2).trans (R1.final1 (V2 m ρ) c)

/-- The mean is untouched by the second call. -/
theorem W3_v3 : W3 m ρ c (Proc.devRef .tc main_v3) = W2 m ρ c (Proc.devRef .tc main_v3) :=
  (W3_arr m ρ c 1).trans (((dat1 (V2 m ρ) c).arrAt_in 1 rfl _).trans (A_eq1 (V2 m ρ) c 1))

/-- The two cores' entries of the second call's array add up to feature d's sum of squared deviations over all rows,
    the deviations taken from whatever the mean array holds at d. -/
theorem sum1 (d : Fin 256) :
    R1.G1 (V2 m ρ) c (ix3 (0 : Fin 2) (0 : Fin 1) d) + R1.G1 (V2 m ρ) c (ix3 (1 : Fin 2) (0 : Fin 1) d)
      = ∑ r : Fin 65536, (X m c (ix2 r d) - R1.arrM (V2 m ρ) c (ix2 (0 : Fin 1) d)) * (X m c (ix2 r d) - R1.arrM (V2 m ρ) c (ix2 (0 : Fin 1) d)) := by
  rw [R1.G1_apply, R1.G1_apply]
  simp only [R1.cs_eq]
  have e : R1.arrX (V2 m ρ) c = X m c := V2_arg0 m ρ c
  rw [e]
  exact Spec.two_cores (fun r => (X m c (ix2 r d) - R1.arrM (V2 m ρ) c (ix2 (0 : Fin 1) d)) * (X m c (ix2 r d) - R1.arrM (V2 m ρ) c (ix2 (0 : Fin 1) d)))

end Cert.KernelIdeal.Glue

end
-- ==== Proof.HostStages.lean ====
/-
  The host operations between the kernel program's three grid computations, as pure functions on the extended reals,
  each read at an index: the batch mean and the guarded biased variance from the two half-batch partial sums, the
  folded scale (max(σ², 0) + ε)^(−1/2)·γ and shift β − μ·scale, the three weights transposed to [inputs, outputs]
  (their change of float format is the identity on extended reals), and the three biases as one-row matrices.
-/
import proofs.«159674_j64699387347198_2_alg».proof.KernelIdeal
import Idealize.ShloMosaic.PureOps.Ideal.Laws
import Idealize.ShloMosaic.Lib.ValueIdx
import Idealize.ShloMosaic.Lib.ValueLayout
import Idealize.ShloMosaic.Lib.Pipeline.Value
import proofs.«159674_j64699387347198_2_alg».proof.Proof.Spec

noncomputable section

namespace Cert.KernelIdeal.HostStages

open Cert.KernelIdeal Idealize.ShloMosaic Idealize.ShloMosaic.ValueIdx
open Cert

variable [Facts₀]
open Facts₀

/-! ## The batch statistics from the two half-batch partial sums -/

/-- The sum of the two half-batch partial sums of feature d. -/
theorem halves_sum (s : FVec Ideal S2x1x256 .f32) (d : Fin 256) :
    Host.reduceAdd s (constant (F := Ideal) S_ .f32 0#32) reducesTo_S2x1x256_S1x256_d0 h_S_ (ix2 (0 : Fin 1) d)
      = s (ix3 (0 : Fin 2) (0 : Fin 1) d) + s (ix3 (1 : Fin 2) (0 : Fin 1) d) := by
  simp only [Host.reduceAdd, Ideal.hostReduceAdd_def]
  have hr : S2x1x256.Reduces [0] S1x256 := by decide
  rw [Ideal.hostReduceAdd_single reducesTo_S2x1x256_S1x256_d0 hr]
  show Ideal.ofBits .f32 0#32 + ∑ k : Fin 2, s (hr.lift (ix2 (0 : Fin 1) d) k) = _
  rw [Fin.sum_univ_two, Ideal.ofBits_zero_f32, zero_add]
  congr 1 <;>
    exact congrArg s (funext fun a => Fin.ext (by match a with | ⟨0, _⟩ => rfl | ⟨1, _⟩ => rfl | ⟨2, _⟩ => rfl))

/-- A rank-0 word broadcast to a row reads the word everywhere. -/
theorem word_row_apply (w : BitVec 32) (j : S1x256.Idx) :
    broadcastInDim S1x256 ![] bcast_S_S1x256 (constant (F := Ideal) S_ .f32 w) j = Ideal.ofBits .f32 w := rfl

/-- The mean: the two partial sums' sum over the batch size. -/
def meanOf (s : FVec Ideal S2x1x256 .f32) : FVec Ideal S1x256 .f32 :=
  Host.divf (Host.reduceAdd s (constant S_ .f32 0#32) reducesTo_S2x1x256_S1x256_d0 h_S_)
    (broadcastInDim S1x256 ![] bcast_S_S1x256 (constant S_ .f32 1199570944#32))

theorem meanOf_apply (s : FVec Ideal S2x1x256 .f32) (d : Fin 256) :
    meanOf s (ix2 (0 : Fin 1) d)
      = Ideal.div (s (ix3 (0 : Fin 2) (0 : Fin 1) d) + s (ix3 (1 : Fin 2) (0 : Fin 1) d)) Spec.nW := by
  show Ideal.div (Host.reduceAdd s (constant (F := Ideal) S_ .f32 0#32) reducesTo_S2x1x256_S1x256_d0 h_S_ (ix2 (0 : Fin 1) d))
    (broadcastInDim S1x256 ![] bcast_S_S1x256 (constant (F := Ideal) S_ .f32 1199570944#32) (ix2 (0 : Fin 1) d)) = _
  rw [halves_sum, word_row_apply]
  rfl

/-- The biased variance, guarded below by zero: the two partial sums of squared deviations over the batch size. -/
def varOf (q : FVec Ideal S2x1x256 .f32) : FVec Ideal S1x256 .f32 :=
  maximumf (Host.divf (Host.reduceAdd q (constant S_ .f32 0#32) reducesTo_S2x1x256_S1x256_d0 h_S_)
    (broadcastInDim S1x256 ![] bcast_S_S1x256 (constant S_ .f32 1199570944#32)))
    (broadcastInDim S1x256 ![] bcast_S_S1x256 (constant S_ .f32 0#32))

theorem varOf_apply (q : FVec Ideal S2x1x256 .f32) (d : Fin 256) :
    varOf q (ix2 (0 : Fin 1) d)
      = max (Ideal.div (q (ix3 (0 : Fin 2) (0 : Fin 1) d) + q (ix3 (1 : Fin 2) (0 : Fin 1) d)) Spec.nW) Spec.zW := by
  show max (Ideal.div (Host.reduceAdd q (constant (F := Ideal) S_ .f32 0#32) reducesTo_S2x1x256_S1x256_d0 h_S_ (ix2 (0 : Fin 1) d))
    (broadcastInDim S1x256 ![] bcast_S_S1x256 (constant (F := Ideal) S_ .f32 1199570944#32) (ix2 (0 : Fin 1) d)))
    (broadcastInDim S1x256 ![] bcast_S_S1x256 (constant (F := Ideal) S_ .f32 0#32) (ix2 (0 : Fin 1) d)) = _
  rw [halves_sum, word_row_apply, word_row_apply]
  rfl

/-- The folded scale (max(σ², 0) + ε)^(−1/2)·γ. -/
def scaleOf (q : FVec Ideal S2x1x256 .f32) (γ : FVec Ideal S256 .f32) : FVec Ideal S1x256 .f32 :=
  mulf (Host.rsqrt (addf (varOf q) (broadcastInDim S1x256 ![] bcast_S_S1x256 (constant S_ .f32 925353388#32))))
    (shapeCast S1x256 γ shapeCasts_S256_S1x256)

theorem scaleOf_apply (q : FVec Ideal S2x1x256 .f32) (γ : FVec Ideal S256 .f32) (d : Fin 256) :
    scaleOf q γ (ix2 (0 : Fin 1) d)
      = Ideal.rsqrt (max (Ideal.div (q (ix3 (0 : Fin 2) (0 : Fin 1) d) + q (ix3 (1 : Fin 2) (0 : Fin 1) d)) Spec.nW) Spec.zW
          + Spec.epsW) * γ (ix1 d) := by
  show Ideal.rsqrt (varOf q (ix2 (0 : Fin 1) d)
      + broadcastInDim S1x256 ![] bcast_S_S1x256 (constant (F := Ideal) S_ .f32 925353388#32) (ix2 (0 : Fin 1) d))
    * shapeCast S1x256 γ shapeCasts_S256_S1x256 (ix2 (0 : Fin 1) d) = _
  rw [varOf_apply, word_row_apply, shapeCast_a_1a_apply]
  rfl

/-- The folded shift β − μ·scale. -/
def shiftOf (q : FVec Ideal S2x1x256 .f32) (μ : FVec Ideal S1x256 .f32) (γ β : FVec Ideal S256 .f32) :
    FVec Ideal S1x256 .f32 :=
  subf (shapeCast S1x256 β shapeCasts_S256_S1x256) (mulf μ (scaleOf q γ))

theorem shiftOf_apply (q : FVec Ideal S2x1x256 .f32) (μ : FVec Ideal S1x256 .f32) (γ β : FVec Ideal S256 .f32) (d : Fin 256) :
    shiftOf q μ γ β (ix2 (0 : Fin 1) d) = β (ix1 d) - μ (ix2 (0 : Fin 1) d) * scaleOf q γ (ix2 (0 : Fin 1) d) := by
  show shapeCast S1x256 β shapeCasts_S256_S1x256 (ix2 (0 : Fin 1) d) - μ (ix2 (0 : Fin 1) d) * scaleOf q γ (ix2 (0 : Fin 1) d) = _
  rw [shapeCast_a_1a_apply]

/-! ## The weights transposed and the biases as rows -/

/-- The first layer's weight transposed to [inputs, outputs] (the change of float format is the identity on extended reals). -/
def wT1 (W : FVec Ideal S512x256 .f32) : FVec Ideal S256x512 .bf16 :=
  truncf .bf16 (transpose S256x512 [1, 0] W transposes_S512x256_S256x512_1_0) bitsLt_bf16_f32
def wT2 (W : FVec Ideal S2048x512 .f32) : FVec Ideal S512x2048 .bf16 :=
  truncf .bf16 (transpose S512x2048 [1, 0] W transposes_S2048x512_S512x2048_1_0) bitsLt_bf16_f32
def wT3 (W : FVec Ideal S256x2048 .f32) : FVec Ideal S2048x256 .bf16 :=
  truncf .bf16 (transpose S2048x256 [1, 0] W transposes_S256x2048_S2048x256_1_0) bitsLt_bf16_f32

theorem wT1_apply (W : FVec Ideal S512x256 .f32) (k : Fin 256) (a : Fin 512) : wT1 W (ix2 k a) = W (ix2 a k) :=
  transpose_ix2_apply W transposes_S512x256_S256x512_1_0 k a
theorem wT2_apply (W : FVec Ideal S2048x512 .f32) (a : Fin 512) (b : Fin 2048) : wT2 W (ix2 a b) = W (ix2 b a) :=
  transpose_ix2_apply W transposes_S2048x512_S512x2048_1_0 a b
theorem wT3_apply (W : FVec Ideal S256x2048 .f32) (b : Fin 2048) (j : Fin 256) : wT3 W (ix2 b j) = W (ix2 j b) :=
  transpose_ix2_apply W transposes_S256x2048_S2048x256_1_0 b j

/-- A bias as a one-row matrix. -/
def row1 (b : FVec Ideal S512 .f32) : FVec Ideal S1x512 .f32 := shapeCast S1x512 b shapeCasts_S512_S1x512
def row2 (b : FVec Ideal S2048 .f32) : FVec Ideal S1x2048 .f32 := shapeCast S1x2048 b shapeCasts_S2048_S1x2048
def row3 (b : FVec Ideal S256 .f32) : FVec Ideal S1x256 .f32 := shapeCast S1x256 b shapeCasts_S256_S1x256

theorem row1_apply (b : FVec Ideal S512 .f32) (a : Fin 512) : row1 b (ix2 (0 : Fin 1) a) = b (ix1 a) :=
  shapeCast_a_1a_apply b shapeCasts_S512_S1x512 0 a
theorem row2_apply (b : FVec Ideal S2048 .f32) (a : Fin 2048) : row2 b (ix2 (0 : Fin 1) a) = b (ix1 a) :=
  shapeCast_a_1a_apply b shapeCasts_S2048_S1x2048 0 a
theorem row3_apply (b : FVec Ideal S256 .f32) (a : Fin 256) : row3 b (ix2 (0 : Fin 1) a) = b (ix1 a) :=
  shapeCast_a_1a_apply b shapeCasts_S256_S1x256 0 a

end Cert.KernelIdeal.HostStages

end
-- ==== Proof.Glue2.lean ====
/-
  The arrays the third call reads, as functions of the launched arguments: the folded scale and shift of the batch
  normalisation (from the two calls' sums: mean, guarded variance, reciprocal square root), the three weights transposed
  and the three biases as rows; and with them the kernel's two results as the specification in its folded arrangement.
-/
import proofs.«159674_j64699387347198_2_alg».proof.Proof.Glue1
import proofs.«159674_j64699387347198_2_alg».proof.Proof.HostStages

noncomputable section

open Idealize.ShloMosaic Idealize.ShloMosaic.TcCoe Idealize.SL.Sem Idealize.ShloMosaic.StableHlo
open Idealize.ShloMosaic.Pipeline (Dat)

namespace Cert.KernelIdeal.Glue

open Cert.KernelIdeal Cert.KernelIdeal.Gen Idealize.ShloMosaic.ValueIdx Cert.KernelIdeal.HostStages

variable (m : (ℓ : Loc nD τ sig) → Buf (Elt Ideal) ℓ) (ρ : Dev nD → PrngReg) (c : Dev nD)

/-! ## The other arguments are untouched up to the second stretch of host operations -/

theorem W3_arg1 : W3 m ρ c (Proc.devRef .tc main_arg1) = m ((c : Thread nD τ).loc main_arg1) :=
  (W3_of_ne m ρ c main_arg1 (by decide)).trans
    ((show StableHlo.after hostOps1 (W1 m ρ c) (Proc.devRef .tc main_arg1) = W1 m ρ c (Proc.devRef .tc main_arg1) by after_results).trans
      (W1_of_ne m ρ c main_arg1 (by decide)))
theorem W3_arg2 : W3 m ρ c (Proc.devRef .tc main_arg2) = m ((c : Thread nD τ).loc main_arg2) :=
  (W3_of_ne m ρ c main_arg2 (by decide)).trans
    ((show StableHlo.after hostOps1 (W1 m ρ c) (Proc.devRef .tc main_arg2) = W1 m ρ c (Proc.devRef .tc main_arg2) by after_results).trans
      (W1_of_ne m ρ c main_arg2 (by decide)))
theorem W3_arg3 : W3 m ρ c (Proc.devRef .tc main_arg3) = m ((c : Thread nD τ).loc main_arg3) :=
  (W3_of_ne m ρ c main_arg3 (by decide)).trans
    ((show StableHlo.after hostOps1 (W1 m ρ c) (Proc.devRef .tc main_arg3) = W1 m ρ c (Proc.devRef .tc main_arg3) by after_results).trans
      (W1_of_ne m ρ c main_arg3 (by decide)))
theorem W3_arg4 : W3 m ρ c (Proc.devRef .tc main_arg4) = m ((c : Thread nD τ).loc main_arg4) :=
  (W3_of_ne m ρ c main_arg4 (by decide)).trans
    ((show StableHlo.after hostOps1 (W1 m ρ c) (Proc.devRef .tc main_arg4) = W1 m ρ c (Proc.devRef .tc main_arg4) by after_results).trans
      (W1_of_ne m ρ c main_arg4 (by decide)))
theorem W3_arg5 : W3 m ρ c (Proc.devRef .tc main_arg5) = m ((c : Thread nD τ).loc main_arg5) :=
  (W3_of_ne m ρ c main_arg5 (by decide)).trans
    ((show StableHlo.after hostOps1 (W1 m ρ c) (Proc.devRef .tc main_arg5) = W1 m ρ c (Proc.devRef .tc main_arg5) by after_results).trans
      (W1_of_ne m ρ c main_arg5 (by decide)))
theorem W3_arg6 : W3 m ρ c (Proc.devRef .tc main_arg6) = m ((c : Thread nD τ).loc main_arg6) :=
  (W3_of_ne m ρ c main_arg6 (by decide)).trans
    ((show StableHlo.after hostOps1 (W1 m ρ c) (Proc.devRef .tc main_arg6) = W1 m ρ c (Proc.devRef .tc main_arg6) by after_results).trans
      (W1_of_ne m ρ c main_arg6 (by decide)))
theorem W3_arg7 : W3 m ρ c (Proc.devRef .tc main_arg7) = m ((c : Thread nD τ).loc main_arg7) :=
  (W3_of_ne m ρ c main_arg7 (by decide)).trans
    ((show StableHlo.after hostOps1 (W1 m ρ c) (Proc.devRef .tc main_arg7) = W1 m ρ c (Proc.devRef .tc main_arg7) by after_results).trans
      (W1_of_ne m ρ c main_arg7 (by decide)))
theorem W3_arg8 : W3 m ρ c (Proc.devRef .tc main_arg8) = m ((c : Thread nD τ).loc main_arg8) :=
  (W3_of_ne m ρ c main_arg8 (by decide)).trans
    ((show StableHlo.after hostOps1 (W1 m ρ c) (Proc.devRef .tc main_arg8) = W1 m ρ c (Proc.devRef .tc main_arg8) by after_results).trans
      (W1_of_ne m ρ c main_arg8 (by decide)))

/-! ## The launched arguments as functions of their indices -/

abbrev Gm : S256.Idx → EReal := m ((c : Thread nD τ).loc main_arg1)
abbrev Bt : S256.Idx → EReal := m ((c : Thread nD τ).loc main_arg2)
abbrev Wa : S512x256.Idx → EReal := m ((c : Thread nD τ).loc main_arg3)
abbrev ba : S512.Idx → EReal := m ((c : Thread nD τ).loc main_arg4)
abbrev Wb : S2048x512.Idx → EReal := m ((c : Thread nD τ).loc main_arg5)
abbrev bb : S2048.Idx → EReal := m ((c : Thread nD τ).loc main_arg6)
abbrev Wc : S256x2048.Idx → EReal := m ((c : Thread nD τ).loc main_arg7)
abbrev bc : S256.Idx → EReal := m ((c : Thread nD τ).loc main_arg8)

/-! ## The mean -/

/-- The mean array as the second call finds it. -/
abbrev meanArr : S1x256.Idx → EReal := W2 m ρ c (Proc.devRef .tc main_v3)

theorem W2_v3 : meanArr m ρ c = meanOf (W1 m ρ c (Proc.devRef .tc main_v0)) := by
  show StableHlo.after hostOps1 (W1 m ρ c) (Proc.devRef .tc main_v3) = _
  after_results
  rfl

/-- It holds feature d's mean over the batch. -/
theorem mean_eq (d : Fin 256) : meanArr m ρ c (ix2 (0 : Fin 1) d) = Spec.mean (Spec.m2 (X m c)) d := by
  rw [W2_v3, W1_v0, meanOf_apply, sum0]
  rfl

/-! ## The folded scale and shift -/

abbrev scaleArr : S1x256.Idx → EReal := W4 m ρ c (Proc.devRef .tc main_v15)
abbrev shiftArr : S1x256.Idx → EReal := W4 m ρ c (Proc.devRef .tc main_v17)

theorem W4_v15 : scaleArr m ρ c = scaleOf (W3 m ρ c (Proc.devRef .tc main_v4)) (W3 m ρ c (Proc.devRef .tc main_arg1)) := by
  show StableHlo.after hostOps2 (W3 m ρ c) (Proc.devRef .tc main_v15) = _
  after_results
  rfl

theorem W4_v17 : shiftArr m ρ c = shiftOf (W3 m ρ c (Proc.devRef .tc main_v4)) (W3 m ρ c (Proc.devRef .tc main_v3))
    (W3 m ρ c (Proc.devRef .tc main_arg1)) (W3 m ρ c (Proc.devRef .tc main_arg2)) := by
  show StableHlo.after hostOps2 (W3 m ρ c) (Proc.devRef .tc main_v17) = _
  after_results
  rfl

/-- The sum of the second call's two entries of feature d, over the batch mean. -/
theorem sum1' (d : Fin 256) :
    R1.G1 (V2 m ρ) c (ix3 (0 : Fin 2) (0 : Fin 1) d) + R1.G1 (V2 m ρ) c (ix3 (1 : Fin 2) (0 : Fin 1) d)
      = ∑ r : Fin 65536, (Spec.m2 (X m c) r d - Spec.mean (Spec.m2 (X m c)) d) * (Spec.m2 (X m c) r d - Spec.mean (Spec.m2 (X m c)) d) := by
  rw [sum1]
  have e : R1.arrM (V2 m ρ) c (ix2 (0 : Fin 1) d) = Spec.mean (Spec.m2 (X m c)) d := mean_eq m ρ c d
  rw [e]

theorem scale_eq (d : Fin 256) : scaleArr m ρ c (ix2 (0 : Fin 1) d) = Spec.scale (Spec.m2 (X m c)) (Spec.m1 (Gm m c)) d := by
  rw [W4_v15, scaleOf_apply, W3_v4, sum1', W3_arg1]
  rfl

theorem shift_eq (d : Fin 256) :
    shiftArr m ρ c (ix2 (0 : Fin 1) d) = Spec.shift (Spec.m2 (X m c)) (Spec.m1 (Gm m c)) (Spec.m1 (Bt m c)) d := by
  rw [W4_v17, shiftOf_apply, scaleOf_apply, W3_v4, sum1', W3_arg1, W3_arg2, W3_v3]
  have e : W2 m ρ c (Proc.devRef .tc main_v3) (ix2 (0 : Fin 1) d) = Spec.mean (Spec.m2 (X m c)) d := mean_eq m ρ c d
  rw [e]
  rfl

/-! ## The weights and biases as the third call finds them -/

theorem W4_v19 : W4 m ρ c (Proc.devRef .tc main_v19) = wT1 (Wa m c) := by
  show StableHlo.after hostOps2 (W3 m ρ c) (Proc.devRef .tc main_v19) = _
  after_results
  rw [W3_arg3]; rfl
theorem W4_v21 : W4 m ρ c (Proc.devRef .tc main_v21) = wT2 (Wb m c) := by
  show StableHlo.after hostOps2 (W3 m ρ c) (Proc.devRef .tc main_v21) = _
  after_results
  rw [W3_arg5]; rfl
theorem W4_v23 : W4 m ρ c (Proc.devRef .tc main_v23) = wT3 (Wc m c) := by
  show StableHlo.after hostOps2 (W3 m ρ c) (Proc.devRef .tc main_v23) = _
  after_results
  rw [W3_arg7]; rfl
theorem W4_v24 : W4 m ρ c (Proc.devRef .tc main_v24) = row1 (ba m c) := by
  show StableHlo.after hostOps2 (W3 m ρ c) (Proc.devRef .tc main_v24) = _
  after_results
  rw [W3_arg4]; rfl
theorem W4_v25 : W4 m ρ c (Proc.devRef .tc main_v25) = row2 (bb m c) := by
  show StableHlo.after hostOps2 (W3 m ρ c) (Proc.devRef .tc main_v25) = _
  after_results
  rw [W3_arg6]; rfl
theorem W4_v26 : W4 m ρ c (Proc.devRef .tc main_v26) = row3 (bc m c) := by
  show StableHlo.after hostOps2 (W3 m ρ c) (Proc.devRef .tc main_v26) = _
  after_results
  rw [W3_arg8]; rfl

end Cert.KernelIdeal.Glue

end
-- ==== Proof.Region2Pay.lean ====
/-
  The third region's arithmetic at one entry of a 2048-row block.

  A row of the block is normalised (x·scale + shift, scale and shift broadcast down the rows); the second result is its
  hyperbolic tangent; the first is the hyperbolic tangent of three affine layers, each a contraction of the row with a
  weight stored [inputs, outputs] into a zero accumulator plus a bias broadcast down the rows. Changes of float format
  are the identity on extended reals.
-/
import proofs.«159674_j64699387347198_2_alg».proof.Proof.Gen.KernelIdeal.Frame
import proofs.«159674_j64699387347198_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.R2

open Cert.KernelIdeal Cert.KernelIdeal.Gen Idealize.ShloMosaic Idealize.ShloMosaic.ValueIdx

/-- A row vector [1, n] broadcast down m rows reads, at row p and column d, the row vector at column d. -/
theorem broadcastRow_apply {α : Type} {m n : Nat} (x : (⟨2, ![1, n]⟩ : Shape).Idx → α)
    (h : (⟨2, ![1, n]⟩ : Shape).Broadcasts ⟨2, ![m, n]⟩) (p : Fin m) (d : Fin n) :
    broadcastTo ⟨2, ![m, n]⟩ x h (ix2 p d) = x (ix2 0 d) := by
  refine broadcastTo_apply x h (ix2 p d) (ix2 0 d) fun a => ?_
  match a with
  | ⟨0, _⟩ => show 0 = if (1 : Nat) = 1 then 0 else _; rw [if_pos rfl]
  | ⟨1, _⟩ =>
    show d.val = if n = 1 then 0 else d.val
    split_ifs with hn
    · have := d.isLt; omega
    · rfl

/-- A contraction of the last axis of [m, k] with the first axis of [k, n] into a zero accumulator, read at row p and
    column a, is the sum over the contracted coordinate q of left(p, q) · right(q, a). -/
theorem matmul_ix2 {m k n : Nat} {φ₁ φ₂ : FTy}
    (D : DotDims ⟨2, ![m, k]⟩ ⟨2, ![k, n]⟩ ⟨2, ![m, n]⟩) (prec : Option ContractPrecision)
    (hr : D.contr.rank = 1) (hs : D.contr.size ⟨0, by omega⟩ = k)
    (hl0 : ∀ (j : (⟨2, ![m, n]⟩ : Shape).Idx) (q : D.contr.Idx), (D.lhsIdx j q 0).val = (j 0).val)
    (hl1 : ∀ (j : (⟨2, ![m, n]⟩ : Shape).Idx) (q : D.contr.Idx), (D.lhsIdx j q 1).val = (q ⟨0, by omega⟩).val)
    (hr0 : ∀ (j : (⟨2, ![m, n]⟩ : Shape).Idx) (q : D.contr.Idx), (D.rhsIdx j q 0).val = (q ⟨0, by omega⟩).val)
    (hr1 : ∀ (j : (⟨2, ![m, n]⟩ : Shape).Idx) (q : D.contr.Idx), (D.rhsIdx j q 1).val = (j 1).val)
    (lhs : FVec Ideal ⟨2, ![m, k]⟩ φ₁) (rhs : FVec Ideal ⟨2, ![k, n]⟩ φ₂) (p : Fin m) (a : Fin n) :
    FloatOps.matmul D prec lhs rhs (constant (F := Ideal) ⟨2, ![m, n]⟩ .f32 0x00000000#32) (ix2 p a)
      = ∑ q : Fin k, lhs (ix2 p q) * rhs (ix2 q a) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p a) ((contrEquiv1 D k hr hs).symm q) = ix2 p q := funext fun b => Fin.ext (by
    match b with
    | ⟨0, _⟩ => exact hl0 _ _
    | ⟨1, _⟩ => exact (hl1 _ _).trans hq)
  have er : D.rhsIdx (ix2 p a) ((contrEquiv1 D k hr hs).symm q) = ix2 q a := funext fun b => Fin.ext (by
    match b with
    | ⟨0, _⟩ => exact (hr0 _ _).trans hq
    | ⟨1, _⟩ => exact hr1 _ _)
  rw [el, er]

/-- One affine layer on a block: the contraction into a zero accumulator plus the bias row broadcast down the rows, at row
    p and output feature a, is `Spec.layer` of row p with the weight read transposed. -/
theorem layer_ix2 {m k n : Nat} {φ₁ φ₂ : FTy}
    (D : DotDims ⟨2, ![m, k]⟩ ⟨2, ![k, n]⟩ ⟨2, ![m, n]⟩) (prec : Option ContractPrecision)
    (hr : D.contr.rank = 1) (hs : D.contr.size ⟨0, by omega⟩ = k)
    (hl0 : ∀ (j : (⟨2, ![m, n]⟩ : Shape).Idx) (q : D.contr.Idx), (D.lhsIdx j q 0).val = (j 0).val)
    (hl1 : ∀ (j : (⟨2, ![m, n]⟩ : Shape).Idx) (q : D.contr.Idx), (D.lhsIdx j q 1).val = (q ⟨0, by omega⟩).val)
    (hr0 : ∀ (j : (⟨2, ![m, n]⟩ : Shape).Idx) (q : D.contr.Idx), (D.rhsIdx j q 0).val = (q ⟨0, by omega⟩).val)
    (hr1 : ∀ (j : (⟨2, ![m, n]⟩ : Shape).Idx) (q : D.contr.Idx), (D.rhsIdx j q 1).val = (j 1).val)
    (h : FVec Ideal ⟨2, ![m, k]⟩ φ₁) (W : FVec Ideal ⟨2, ![k, n]⟩ φ₂) (b : FVec Ideal ⟨2, ![1, n]⟩ .f32)
    (hb : (⟨2, ![1, n]⟩ : Shape).Broadcasts ⟨2, ![m, n]⟩) (p : Fin m) (a : Fin n) :
    addf (FloatOps.matmul D prec h W (constant (F := Ideal) ⟨2, ![m, n]⟩ .f32 0x00000000#32)) (broadcastTo ⟨2, ![m, n]⟩ b hb) (ix2 p a)
      = Spec.layer (fun q => h (ix2 p q)) (fun a q => W (ix2 q a)) (fun a => b (ix2 0 a)) a := by
  rw [addf_apply, matmul_ix2 D prec hr hs hl0 hl1 hr0 hr1, broadcastRow_apply]
  rfl

/-! ## The three contractions' operand indices -/

abbrev D1 := dot_S2048x256_S256x512_S2048x512_1_0_0_1_n_n
abbrev D2 := dot_S2048x512_S512x2048_S2048x2048_1_0_0_1_n_n
abbrev D3 := dot_S2048x2048_S2048x256_S2048x256_1_0_0_1_n_n

theorem D1_l0 (j : S2048x512.Idx) (q : D1.contr.Idx) : (D1.lhsIdx j q 0).val = (j 0).val := by
  unfold DotDims.lhsIdx
  rw [dif_neg (show ¬(0 : Fin S2048x256.rank) ∈ D1.lhsBatch by decide), dif_pos (show (0 : Fin S2048x256.rank) ∈ D1.lhsNonContracting by decide)]
  rfl
theorem D1_l1 (j : S2048x512.Idx) (q : D1.contr.Idx) : (D1.lhsIdx j q 1).val = (q ⟨0, by decide⟩).val :=
  D1.lhsIdx_val_of_single rfl j q
theorem D1_r0 (j : S2048x512.Idx) (q : D1.contr.Idx) : (D1.rhsIdx j q 0).val = (q ⟨0, by decide⟩).val :=
  D1.rhsIdx_val_of_single rfl j q
theorem D1_r1 (j : S2048x512.Idx) (q : D1.contr.Idx) : (D1.rhsIdx j q 1).val = (j 1).val := by
  unfold DotDims.rhsIdx
  rw [dif_neg (show ¬(1 : Fin S256x512.rank) ∈ D1.rhsBatch by decide), dif_pos (show (1 : Fin S256x512.rank) ∈ D1.rhsNonContracting by decide)]
  rfl

theorem D2_l0 (j : S2048x2048.Idx) (q : D2.contr.Idx) : (D2.lhsIdx j q 0).val = (j 0).val := by
  unfold DotDims.lhsIdx
  rw [dif_neg (show ¬(0 : Fin S2048x512.rank) ∈ D2.lhsBatch by decide), dif_pos (show (0 : Fin S2048x512.rank) ∈ D2.lhsNonContracting by decide)]
  rfl
theorem D2_l1 (j : S2048x2048.Idx) (q : D2.contr.Idx) : (D2.lhsIdx j q 1).val = (q ⟨0, by decide⟩).val :=
  D2.lhsIdx_val_of_single rfl j q
theorem D2_r0 (j : S2048x2048.Idx) (q : D2.contr.Idx) : (D2.rhsIdx j q 0).val = (q ⟨0, by decide⟩).val :=
  D2.rhsIdx_val_of_single rfl j q
theorem D2_r1 (j : S2048x2048.Idx) (q : D2.contr.Idx) : (D2.rhsIdx j q 1).val = (j 1).val := by
  unfold DotDims.rhsIdx
  rw [dif_neg (show ¬(1 : Fin S512x2048.rank) ∈ D2.rhsBatch by decide), dif_pos (show (1 : Fin S512x2048.rank) ∈ D2.rhsNonContracting by decide)]
  rfl

theorem D3_l0 (j : S2048x256.Idx) (q : D3.contr.Idx) : (D3.lhsIdx j q 0).val = (j 0).val := by
  unfold DotDims.lhsIdx
  rw [dif_neg (show ¬(0 : Fin S2048x2048.rank) ∈ D3.lhsBatch by decide), dif_pos (show (0 : Fin S2048x2048.rank) ∈ D3.lhsNonContracting by decide)]
  rfl
theorem D3_l1 (j : S2048x256.Idx) (q : D3.contr.Idx) : (D3.lhsIdx j q 1).val = (q ⟨0, by decide⟩).val :=
  D3.lhsIdx_val_of_single rfl j q
theorem D3_r0 (j : S2048x256.Idx) (q : D3.contr.Idx) : (D3.rhsIdx j q 0).val = (q ⟨0, by decide⟩).val :=
  D3.rhsIdx_val_of_single rfl j q
theorem D3_r1 (j : S2048x256.Idx) (q : D3.contr.Idx) : (D3.rhsIdx j q 1).val = (j 1).val := by
  unfold DotDims.rhsIdx
  rw [dif_neg (show ¬(1 : Fin S2048x256.rank) ∈ D3.rhsBatch by decide), dif_pos (show (1 : Fin S2048x256.rank) ∈ D3.rhsNonContracting by decide)]
  rfl

/-! ## The payloads at an entry -/

/-- The normalised entry of the block: x·scale + shift, scale and shift read at the entry's column. -/
theorem pay2_apply (x0 : Vec Ideal S2048x256 .f32) (x1 x3 : Vec Ideal S1x256 .f32) (p : Fin 2048) (d : Fin 256) :
    k2_pay2 (F := Ideal) x0 x1 x3 (ix2 p d) = x0 (ix2 p d) * x1 (ix2 0 d) + x3 (ix2 0 d) := by
  unfold k2_pay2
  simp only [shapeCast_self]
  rw [addf_apply, mulf_apply, broadcastRow_apply, broadcastRow_apply]

/-- The second result's block: the hyperbolic tangent of the normalised entry. -/
theorem pay3_apply (x0 : Vec Ideal S2048x256 .f32) (x1 x3 : Vec Ideal S1x256 .f32) (p : Fin 2048) (d : Fin 256) :
    k2_pay3 (F := Ideal) x0 x1 x3 (ix2 p d) = Ideal.tanh (x0 (ix2 p d) * x1 (ix2 0 d) + x3 (ix2 0 d)) := by
  unfold k2_pay3
  show Ideal.tanh (k2_pay2 (F := Ideal) x0 x1 x3 (ix2 p d)) = _
  rw [pay2_apply]

/-- The three layers on a row of the block, before the final hyperbolic tangent: each weight is stored
    [inputs, outputs], so `Spec.layer` reads it transposed. -/
theorem pay4_apply (x0 : Vec Ideal S2048x256 .f32) (x1 x3 : Vec Ideal S1x256 .f32) (v12 : Vec Ideal S256x512 .bf16)
    (v15 : Vec Ideal S1x512 .f32) (v20 : Vec Ideal S512x2048 .bf16) (v23 : Vec Ideal S1x2048 .f32)
    (v28 : Vec Ideal S2048x256 .bf16) (v31 : Vec Ideal S1x256 .f32) (p : Fin 2048) (j : Fin 256) :
    k2_pay4 (F := Ideal) x0 x1 x3 v12 v15 v20 v23 v28 v31 (ix2 p j)
      = Spec.layer (Spec.layer (Spec.layer (fun k => x0 (ix2 p k) * x1 (ix2 0 k) + x3 (ix2 0 k))
            (fun a k => v12 (ix2 k a)) (fun a => v15 (ix2 0 a)))
          (fun b a => v20 (ix2 a b)) (fun b => v23 (ix2 0 b)))
        (fun j b => v28 (ix2 b j)) (fun j => v31 (ix2 0 j)) j := by
  unfold k2_pay4
  simp only [shapeCast_self]
  refine (layer_ix2 D3 none rfl rfl D3_l0 D3_l1 D3_r0 D3_r1 _ v28 v31 broadcasts_S1x256_S2048x256 p j).trans ?_
  refine congrArg (fun h => Spec.layer h (fun j b => v28 (ix2 b j)) (fun j => v31 (ix2 0 j)) j) (funext fun b => ?_)
  rw [truncf_apply]
  refine (layer_ix2 D2 none rfl rfl D2_l0 D2_l1 D2_r0 D2_r1 _ v20 v23 broadcasts_S1x2048_S2048x2048 p b).trans ?_
  refine congrArg (fun h => Spec.layer h (fun b a => v20 (ix2 a b)) (fun b => v23 (ix2 0 b)) b) (funext fun a => ?_)
  rw [truncf_apply]
  refine (layer_ix2 D1 none rfl rfl D1_l0 D1_l1 D1_r0 D1_r1 _ v12 v15 broadcasts_S1x512_S2048x512 p a).trans ?_
  refine congrArg (fun h => Spec.layer h (fun a k => v12 (ix2 k a)) (fun a => v15 (ix2 0 a)) a) (funext fun k => ?_)
  rw [truncf_apply]
  exact pay2_apply x0 x1 x3 p k

/-- The first result's block: the hyperbolic tangent of the three layers on the entry's row. -/
theorem pay1_pay4_apply (x0 : Vec Ideal S2048x256 .f32) (x1 x3 : Vec Ideal S1x256 .f32) (v12 : Vec Ideal S256x512 .bf16)
    (v15 : Vec Ideal S1x512 .f32) (v20 : Vec Ideal S512x2048 .bf16) (v23 : Vec Ideal S1x2048 .f32)
    (v28 : Vec Ideal S2048x256 .bf16) (v31 : Vec Ideal S1x256 .f32) (p : Fin 2048) (j : Fin 256) :
    k2_pay1 (F := Ideal) (k2_pay4 (F := Ideal) x0 x1 x3 v12 v15 v20 v23 v28 v31) (ix2 p j)
      = Ideal.tanh (Spec.layer (Spec.layer (Spec.layer (fun k => x0 (ix2 p k) * x1 (ix2 0 k) + x3 (ix2 0 k))
            (fun a k => v12 (ix2 k a)) (fun a => v15 (ix2 0 a)))
          (fun b a => v20 (ix2 a b)) (fun b => v23 (ix2 0 b)))
        (fun j b => v28 (ix2 b j)) (fun j => v31 (ix2 0 j)) j) := by
  unfold k2_pay1
  show Ideal.tanh (k2_pay4 (F := Ideal) x0 x1 x3 v12 v15 v20 v23 v28 v31 (ix2 p j)) = _
  rw [pay4_apply]

end Cert.KernelIdeal.R2

end
-- ==== Proof.Region2Blk.lean ====
/-
  The third region's staged blocks, read off the arrays the region finds.

  The region runs 32 points; point t stages rows 2048·t … 2048·t + 2047 of the batch together with the whole scale and
  shift rows, the three weights (stored [inputs, outputs]) and the three bias rows. Here: the nine arrays at their literal
  shapes; the two functions of them that the result arrays will end holding; what the body leaves in each result's
  staging block (its one store's payload of the staged blocks); the windows' block indices, decided once over the grid;
  and each staged block as entries of its array.
-/
import proofs.«159674_j64699387347198_2_alg».proof.Proof.Region2Pay
import Idealize.ShloMosaic.Lib.Pipeline.Value

noncomputable section

namespace Cert.KernelIdeal.R2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The arrays the region finds, at their literal shapes -/

/-- The batch, [65536, 256]. -/
abbrev A0 (c : Dev nD) : S65536x256.Idx → EReal := V c (Pipeline.arrRef spec2 0)
/-- The folded scale row, [1, 256]. -/
abbrev A1 (c : Dev nD) : S1x256.Idx → EReal := V c (Pipeline.arrRef spec2 1)
/-- The folded shift row, [1, 256]. -/
abbrev A2 (c : Dev nD) : S1x256.Idx → EReal := V c (Pipeline.arrRef spec2 2)
/-- The first weight, stored [inputs, outputs] = [256, 512]. -/
abbrev A3 (c : Dev nD) : S256x512.Idx → EReal := V c (Pipeline.arrRef spec2 3)
/-- The first bias row, [1, 512]. -/
abbrev A4 (c : Dev nD) : S1x512.Idx → EReal := V c (Pipeline.arrRef spec2 4)
/-- The second weight, stored [512, 2048]. -/
abbrev A5 (c : Dev nD) : S512x2048.Idx → EReal := V c (Pipeline.arrRef spec2 5)
/-- The second bias row, [1, 2048]. -/
abbrev A6 (c : Dev nD) : S1x2048.Idx → EReal := V c (Pipeline.arrRef spec2 6)
/-- The last weight, stored [2048, 256]. -/
abbrev A7 (c : Dev nD) : S2048x256.Idx → EReal := V c (Pipeline.arrRef spec2 7)
/-- The last bias row, [1, 256]. -/
abbrev A8 (c : Dev nD) : S1x256.Idx → EReal := V c (Pipeline.arrRef spec2 8)

/-- The second result as one function of the arrays: the hyperbolic tangent of the normalised entry. -/
abbrev Graw (c : Dev nD) : S65536x256.Idx → EReal := fun i =>
  Ideal.tanh (A0 V c i * A1 V c (ix2 0 (i 1)) + A2 V c (ix2 0 (i 1)))

/-- The first result as one function of the arrays: the hyperbolic tangent of the three layers on the normalised row. -/
abbrev Gout (c : Dev nD) : S65536x256.Idx → EReal := fun i =>
  Ideal.tanh (Spec.layer (Spec.layer (Spec.layer (fun k => A0 V c (ix2 (i 0) k) * A1 V c (ix2 0 k) + A2 V c (ix2 0 k))
        (fun a k => A3 V c (ix2 k a)) (fun a => A4 V c (ix2 0 a)))
      (fun b a => A5 V c (ix2 a b)) (fun b => A6 V c (ix2 0 b)))
    (fun j b => A7 V c (ix2 b j)) (fun j => A8 V c (ix2 0 j)) (i 1))

/-! ## What the body leaves in the two result blocks -/

theorem hz : (![0, 0] : Fin 2 → Nat) = fun _ => 0 := funext fun a => by fin_cases a <;> rfl

/-- The first result's staging block after the body is the layers' payload of the staged blocks. -/
theorem out9_eq (x0 : Vec Ideal S2048x256 .f32) (x1 x2 : Vec Ideal S1x256 .f32) (x3 : Vec Ideal S256x512 .bf16)
    (x4 : Vec Ideal S1x512 .f32) (x5 : Vec Ideal S512x2048 .bf16) (x6 : Vec Ideal S1x2048 .f32)
    (x7 : Vec Ideal S2048x256 .bf16) (x8 : Vec Ideal S1x256 .f32) :
    out2_9 (F := Ideal) x0 x1 x2 x3 x4 x5 x6 x7 x8 = k2_pay1 (k2_pay4 x0 x1 x2 x3 x4 x5 x6 x7 x8) := by
  unfold out2_9
  rw [View.canon_unit_zero hz]
  simp only [View.ld_unit_zero (S := S2048x256) hz, View.ld_unit_zero (S := S1x256) hz, View.ld_unit_zero (S := S256x512) hz,
    View.ld_unit_zero (S := S1x512) hz, View.ld_unit_zero (S := S512x2048) hz, View.ld_unit_zero (S := S1x2048) hz]

/-- The second result's staging block after the body is the normalised entry's payload of the staged blocks. -/
theorem out10_eq (x0 : Vec Ideal S2048x256 .f32) (x1 x2 : Vec Ideal S1x256 .f32) (x3 : Vec Ideal S256x512 .bf16)
    (x4 : Vec Ideal S1x512 .f32) (x5 : Vec Ideal S512x2048 .bf16) (x6 : Vec Ideal S1x2048 .f32)
    (x7 : Vec Ideal S2048x256 .bf16) (x8 : Vec Ideal S1x256 .f32) :
    out2_10 (F := Ideal) x0 x1 x2 x3 x4 x5 x6 x7 x8 = k2_pay3 x0 x1 x2 := by
  unfold out2_10
  rw [View.canon_unit_zero hz]
  simp only [View.ld_unit_zero (S := S2048x256) hz, View.ld_unit_zero (S := S1x256) hz]

/-! ## The windows' index maps, decided once over the grid -/

/-- The batch's window and the two results' windows are at block (t, 0) at point t; every other window is at block (0, 0). -/
theorem idx_facts : ∀ t : Fin cfg2.N,
    win2_0.index t (0 : Fin 2) = t.val ∧ win2_0.index t (1 : Fin 2) = 0
    ∧ win2_9.index t (0 : Fin 2) = t.val ∧ win2_9.index t (1 : Fin 2) = 0
    ∧ win2_10.index t (0 : Fin 2) = t.val ∧ win2_10.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

/-! ## The staged blocks read off the arrays -/

/-- Point t's block of the batch is rows 2048·t … 2048·t + 2047 of the array. -/
theorem blk0_apply (c : Dev nD) (t : Fin cfg2.N) (p : Fin 2048) (k : Fin 256) (i : S65536x256.Idx)
    (hi0 : (i 0).val = t.val * 2048 + p.val) (hi1 : (i 1).val = k.val) :
    (iblk2 V c 0 t : Vec Ideal S2048x256 .f32) (ix2 p k) = A0 V c i := by
  have e0 : win2_0.index t (0 : Fin 2) = t.val := (idx_facts t).1
  have e1 : win2_0.index t (1 : Fin 2) = 0 := (idx_facts t).2.1
  unfold iblk2
  rw [View.read_apply]
  show V c (Pipeline.arrRef spec2 0) _ = V c (Pipeline.arrRef spec2 0) _
  congr 1
  funext a
  apply Fin.ext
  match a with
  | ⟨0, _⟩ => show win2_0.index t 0 * 2048 + 1 * p.val = (i 0).val; rw [e0, hi0]; omega
  | ⟨1, _⟩ => show win2_0.index t 1 * 256 + 1 * k.val = (i 1).val; rw [e1, hi1]; omega

/-- Every point stages the whole scale row. -/
theorem blk1_eq (c : Dev nD) (t : Fin cfg2.N) : (iblk2 V c 1 t : Vec Ideal S1x256 .f32) = A1 V c := by
  have e0 : win2_1.index t (0 : Fin 2) = 0 := (idx_facts t).2.2.2.2.2.2.1
  have e1 : win2_1.index t (1 : Fin 2) = 0 := (idx_facts t).2.2.2.2.2.2.2.1
  funext y
  unfold iblk2
  rw [View.read_apply]
  show V c (Pipeline.arrRef spec2 1) _ = V c (Pipeline.arrRef spec2 1) y
  congr 1
  funext a
  apply Fin.ext
  match a with
  | ⟨0, _⟩ => show win2_1.index t 0 * 1 + 1 * (y 0).val = (y 0).val; rw [e0]; omega
  | ⟨1, _⟩ => show win2_1.index t 1 * 256 + 1 * (y 1).val = (y 1).val; rw [e1]; omega

/-- Every point stages the whole shift row. -/
theorem blk2_eq (c : Dev nD) (t : Fin cfg2.N) : (iblk2 V c 2 t : Vec Ideal S1x256 .f32) = A2 V c := by
  have e0 : win2_2.index t (0 : Fin 2) = 0 := (idx_facts t).2.2.2.2.2.2.2.2.1
  have e1 : win2_2.index t (1 : Fin 2) = 0 := (idx_facts t).2.2.2.2.2.2.2.2.2.1
  funext y
  unfold iblk2
  rw [View.read_apply]
  show V c (Pipeline.arrRef spec2 2) _ = V c (Pipeline.arrRef spec2 2) y
  congr 1
  funext a
  apply Fin.ext
  match a with
  | ⟨0, _⟩ => show win2_2.index t 0 * 1 + 1 * (y 0).val = (y 0).val; rw [e0]; omega
  | ⟨1, _⟩ => show win2_2.index t 1 * 256 + 1 * (y 1).val = (y 1).val; rw [e1]; omega

/-- Every point stages the whole first weight. -/
theorem blk3_eq (c : Dev nD) (t : Fin cfg2.N) : (iblk2 V c 3 t : Vec Ideal S256x512 .bf16) = A3 V c := by
  have e0 : win2_3.index t (0 : Fin 2) = 0 := (idx_facts t).2.2.2.2.2.2.2.2.2.2.1
  have e1 : win2_3.index t (1 : Fin 2) = 0 := (idx_facts t).2.2.2.2.2.2.2.2.2.2.2.1
  funext y
  unfold iblk2
  rw [View.read_apply]
  show V c (Pipeline.arrRef spec2 3) _ = V c (Pipeline.arrRef spec2 3) y
  congr 1
  funext a
  apply Fin.ext
  match a with
  | ⟨0, _⟩ => show win2_3.index t 0 * 256 + 1 * (y 0).val = (y 0).val; rw [e0]; omega
  | ⟨1, _⟩ => show win2_3.index t 1 * 512 + 1 * (y 1).val = (y 1).val; rw [e1]; omega

/-- Every point stages the whole first bias row. -/
theorem blk4_eq (c : Dev nD) (t : Fin cfg2.N) : (iblk2 V c 4 t : Vec Ideal S1x512 .f32) = A4 V c := by
  have e0 : win2_4.index t (0 : Fin 2) = 0 := (idx_facts t).2.2.2.2.2.2.2.2.2.2.2.2.1
  have e1 : win2_4.index t (1 : Fin 2) = 0 := (idx_facts t).2.2.2.2.2.2.2.2.2.2.2.2.2.1
  funext y
  unfold iblk2
  rw [View.read_apply]
  show V c (Pipeline.arrRef spec2 4) _ = V c (Pipeline.arrRef spec2 4) y
  congr 1
  funext a
  apply Fin.ext
  match a with
  | ⟨0, _⟩ => show win2_4.index t 0 * 1 + 1 * (y 0).val = (y 0).val; rw [e0]; omega
  | ⟨1, _⟩ => show win2_4.index t 1 * 512 + 1 * (y 1).val = (y 1).val; rw [e1]; omega

/-- Every point stages the whole second weight. -/
theorem blk5_eq (c : Dev nD) (t : Fin cfg2.N) : (iblk2 V c 5 t : Vec Ideal S512x2048 .bf16) = A5 V c := by
  have e0 : win2_5.index t (0 : Fin 2) = 0 := (idx_facts t).2.2.2.2.2.2.2.2.2.2.2.2.2.2.1
  have e1 : win2_5.index t (1 : Fin 2) = 0 := (idx_facts t).2.2.2.2.2.2.2.2.2.2.2.2.2.2.2.1
  funext y
  unfold iblk2
  rw [View.read_apply]
  show V c (Pipeline.arrRef spec2 5) _ = V c (Pipeline.arrRef spec2 5) y
  congr 1
  funext a
  apply Fin.ext
  match a with
  | ⟨0, _⟩ => show win2_5.index t 0 * 512 + 1 * (y 0).val = (y 0).val; rw [e0]; omega
  | ⟨1, _⟩ => show win2_5.index t 1 * 2048 + 1 * (y 1).val = (y 1).val; rw [e1]; omega

/-- Every point stages the whole second bias row. -/
theorem blk6_eq (c : Dev nD) (t : Fin cfg2.N) : (iblk2 V c 6 t : Vec Ideal S1x2048 .f32) = A6 V c := by
  have e0 : win2_6.index t (0 : Fin 2) = 0 := (idx_facts t).2.2.2.2.2.2.2.2.2.2.2.2.2.2.2.2.1
  have e1 : win2_6.index t (1 : Fin 2) = 0 := (idx_facts t).2.2.2.2.2.2.2.2.2.2.2.2.2.2.2.2.2.1
  funext y
  unfold iblk2
  rw [View.read_apply]
  show V c (Pipeline.arrRef spec2 6) _ = V c (Pipeline.arrRef spec2 6) y
  congr 1
  funext a
  apply Fin.ext
  match a with
  | ⟨0, _⟩ => show win2_6.index t 0 * 1 + 1 * (y 0).val = (y 0).val; rw [e0]; omega
  | ⟨1, _⟩ => show win2_6.index t 1 * 2048 + 1 * (y 1).val = (y 1).val; rw [e1]; omega

/-- Every point stages the whole last weight. -/
theorem blk7_eq (c : Dev nD) (t : Fin cfg2.N) : (iblk2 V c 7 t : Vec Ideal S2048x256 .bf16) = A7 V c := by
  have e0 : win2_7.index t (0 : Fin 2) = 0 := (idx_facts t).2.2.2.2.2.2.2.2.2.2.2.2.2.2.2.2.2.2.1
  have e1 : win2_7.index t (1 : Fin 2) = 0 := (idx_facts t).2.2.2.2.2.2.2.2.2.2.2.2.2.2.2.2.2.2.2.1
  funext y
  unfold iblk2
  rw [View.read_apply]
  show V c (Pipeline.arrRef spec2 7) _ = V c (Pipeline.arrRef spec2 7) y
  congr 1
  funext a
  apply Fin.ext
  match a with
  | ⟨0, _⟩ => show win2_7.index t 0 * 2048 + 1 * (y 0).val = (y 0).val; rw [e0]; omega
  | ⟨1, _⟩ => show win2_7.index t 1 * 256 + 1 * (y 1).val = (y 1).val; rw [e1]; omega

/-- Every point stages the whole last bias row. -/
theorem blk8_eq (c : Dev nD) (t : Fin cfg2.N) : (iblk2 V c 8 t : Vec Ideal S1x256 .f32) = A8 V c := by
  have e0 : win2_8.index t (0 : Fin 2) = 0 := (idx_facts t).2.2.2.2.2.2.2.2.2.2.2.2.2.2.2.2.2.2.2.2.1
  have e1 : win2_8.index t (1 : Fin 2) = 0 := (idx_facts t).2.2.2.2.2.2.2.2.2.2.2.2.2.2.2.2.2.2.2.2.2
  funext y
  unfold iblk2
  rw [View.read_apply]
  show V c (Pipeline.arrRef spec2 8) _ = V c (Pipeline.arrRef spec2 8) y
  congr 1
  funext a
  apply Fin.ext
  match a with
  | ⟨0, _⟩ => show win2_8.index t 0 * 1 + 1 * (y 0).val = (y 0).val; rw [e0]; omega
  | ⟨1, _⟩ => show win2_8.index t 1 * 256 + 1 * (y 1).val = (y 1).val; rw [e1]; omega

end Cert.KernelIdeal.R2

end
-- ==== Proof.Region2FlushRaw.lean ====
/-
  What each point of the third region writes back to the second result.

  At point t the body leaves in the second result's staging block the hyperbolic tangent of the normalised entry of the
  staged blocks; with the staged blocks read off their arrays, that is block t — rows 2048·t … 2048·t + 2047 — of ONE
  function of the arrays.
-/
import proofs.«159674_j64699387347198_2_alg».proof.Proof.Region2Blk
import Idealize.ShloMosaic.Lib.Pipeline.Value

noncomputable section

namespace Cert.KernelIdeal.R2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Point t writes back block t of the second result's function of the arrays. -/
theorem flushed10_eq (c : Dev nD) (t : Fin cfg2.N) :
    (dat2 V c).flushed 10 t = ((cfg2.win 10).blk t).view.read (Elt Ideal) (Graw V c) := by
  show (cfg2.win 10).cut (grid2.coords t) ((dat2 V c).after 10 t) = _
  rw [after2_10, out10_eq]
  funext y
  obtain ⟨p, d, rfl⟩ : ∃ (p : Fin 2048) (d : Fin 256), y = ix2 p d := ⟨y 0, y 1, eq_ix2 y⟩
  show k2_pay3 (F := Ideal) (iblk2 V c 0 t) (iblk2 V c 1 t) (iblk2 V c 2 t) (ix2 p d) = Graw V c (((cfg2.win 10).blk t).view.emb (ix2 p d))
  refine (pay3_apply (iblk2 V c 0 t) (iblk2 V c 1 t) (iblk2 V c 2 t) p d).trans ?_
  have e0 : win2_10.index t (0 : Fin 2) = t.val := (idx_facts t).2.2.2.2.1
  have e1 : win2_10.index t (1 : Fin 2) = 0 := (idx_facts t).2.2.2.2.2.1
  have hi0 : ((((cfg2.win 10).blk t).view.emb (ix2 p d) : S65536x256.Idx) 0).val = t.val * 2048 + p.val := by
    show win2_10.index t 0 * 2048 + 1 * p.val = _; rw [e0]; omega
  have hi1 : ((((cfg2.win 10).blk t).view.emb (ix2 p d) : S65536x256.Idx) 1).val = d.val := by
    show win2_10.index t 1 * 256 + 1 * d.val = _; rw [e1]; omega
  have h1 : (((cfg2.win 10).blk t).view.emb (ix2 p d) : S65536x256.Idx) 1 = d := Fin.ext hi1
  rw [blk0_apply V c t p d _ hi0 hi1, blk1_eq, blk2_eq]
  show _ = Ideal.tanh (A0 V c _ * A1 V c (ix2 0 ((((cfg2.win 10).blk t).view.emb (ix2 p d) : S65536x256.Idx) 1)) + A2 V c (ix2 0 ((((cfg2.win 10).blk t).view.emb (ix2 p d) : S65536x256.Idx) 1)))
  rw [h1]

end Cert.KernelIdeal.R2

end
-- ==== Proof.Region2FlushOut.lean ====
/-
  What each point of the third region writes back to the first result.

  At point t the body leaves in the first result's staging block the hyperbolic tangent of the three affine layers on
  each normalised row of the staged blocks; with the staged blocks read off their arrays, that is block t — rows
  2048·t … 2048·t + 2047 — of ONE function of the arrays.
-/
import proofs.«159674_j64699387347198_2_alg».proof.Proof.Region2Blk
import Idealize.ShloMosaic.Lib.Pipeline.Value

noncomputable section

namespace Cert.KernelIdeal.R2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Point t writes back block t of the first result's function of the arrays. -/
theorem flushed9_eq (c : Dev nD) (t : Fin cfg2.N) :
    (dat2 V c).flushed 9 t = ((cfg2.win 9).blk t).view.read (Elt Ideal) (Gout V c) := by
  show (cfg2.win 9).cut (grid2.coords t) ((dat2 V c).after 9 t) = _
  rw [after2_9, out9_eq]
  funext y
  obtain ⟨p, d, rfl⟩ : ∃ (p : Fin 2048) (d : Fin 256), y = ix2 p d := ⟨y 0, y 1, eq_ix2 y⟩
  show k2_pay1 (F := Ideal) (k2_pay4 (F := Ideal) (iblk2 V c 0 t) (iblk2 V c 1 t) (iblk2 V c 2 t) (iblk2 V c 3 t) (iblk2 V c 4 t) (iblk2 V c 5 t) (iblk2 V c 6 t) (iblk2 V c 7 t) (iblk2 V c 8 t)) (ix2 p d)
    = Gout V c (((cfg2.win 9).blk t).view.emb (ix2 p d))
  refine (pay1_pay4_apply (iblk2 V c 0 t) (iblk2 V c 1 t) (iblk2 V c 2 t) (iblk2 V c 3 t) (iblk2 V c 4 t) (iblk2 V c 5 t) (iblk2 V c 6 t) (iblk2 V c 7 t) (iblk2 V c 8 t) p d).trans ?_
  have e0 : win2_9.index t (0 : Fin 2) = t.val := (idx_facts t).2.2.1
  have e1 : win2_9.index t (1 : Fin 2) = 0 := (idx_facts t).2.2.2.1
  have hi0 : ((((cfg2.win 9).blk t).view.emb (ix2 p d) : S65536x256.Idx) 0).val = t.val * 2048 + p.val := by
    show win2_9.index t 0 * 2048 + 1 * p.val = _; rw [e0]; omega
  have hi1 : ((((cfg2.win 9).blk t).view.emb (ix2 p d) : S65536x256.Idx) 1).val = d.val := by
    show win2_9.index t 1 * 256 + 1 * d.val = _; rw [e1]; omega
  have h1 : (((cfg2.win 9).blk t).view.emb (ix2 p d) : S65536x256.Idx) 1 = d := Fin.ext hi1
  rw [blk3_eq, blk4_eq, blk5_eq, blk6_eq, blk7_eq, blk8_eq]
  show _ = Ideal.tanh (Spec.layer (Spec.layer (Spec.layer
          (fun k => A0 V c (ix2 ((((cfg2.win 9).blk t).view.emb (ix2 p d) : S65536x256.Idx) 0) k) * A1 V c (ix2 0 k) + A2 V c (ix2 0 k))
          (fun a k => A3 V c (ix2 k a)) (fun a => A4 V c (ix2 0 a)))
        (fun b a => A5 V c (ix2 a b)) (fun b => A6 V c (ix2 0 b)))
      (fun j b => A7 V c (ix2 b j)) (fun j => A8 V c (ix2 0 j)) ((((cfg2.win 9).blk t).view.emb (ix2 p d) : S65536x256.Idx) 1))
  rw [h1]
  refine congrArg (fun h : Fin 256 → EReal => Ideal.tanh (Spec.layer (Spec.layer (Spec.layer h
          (fun a k => A3 V c (ix2 k a)) (fun a => A4 V c (ix2 0 a)))
        (fun b a => A5 V c (ix2 a b)) (fun b => A6 V c (ix2 0 b)))
      (fun j b => A7 V c (ix2 b j)) (fun j => A8 V c (ix2 0 j)) d)) (funext fun k => ?_)
  rw [blk0_apply V c t p k (ix2 ((((cfg2.win 9).blk t).view.emb (ix2 p d) : S65536x256.Idx) 0) k) hi0 rfl, blk1_eq, blk2_eq]

end Cert.KernelIdeal.R2

end
-- ==== Proof.Region2.lean ====
/-
  The third region's two result arrays as whole-array functions of the arrays the region finds.

  Point t writes back block t of one function of the arrays for each result, and the 32 blocks tile the 65536 rows
  (row r lies in the block of point r / 2048), so each result array ends holding that function: the hyperbolic tangent
  of the normalised entry, and the hyperbolic tangent of the three affine layers on the normalised row.
-/
import proofs.«159674_j64699387347198_2_alg».proof.Proof.Region2FlushRaw
import proofs.«159674_j64699387347198_2_alg».proof.Proof.Region2FlushOut
import Idealize.ShloMosaic.Lib.Pipeline.Value

noncomputable section

namespace Cert.KernelIdeal.R2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The 32 blocks tile the 65536 rows -/

/-- An entry of the array is in point t's block of window 9 iff each coordinate is in the block's range on its axis. -/
theorem mem_blk9 (t : Fin cfg2.N) (i : S65536x256.Idx) :
    i ∈ ((cfg2.win 9).blk t).view.set ↔ ∀ a : Fin 2, win2_9.index t a * S2048x256.size a ≤ (i a).val ∧ (i a).val < win2_9.index t a * S2048x256.size a + S2048x256.size a := by
  show i ∈ ((View.whole main_v27_0).slice (win2_9.rect t)).set ↔ _
  rw [View.set_slice_whole, Rect.mem_set_unit]
  exact Iff.rfl

/-- Row r of the array is in the block of point r / 2048, which is written back. -/
theorem cover9 (i : S65536x256.Idx) :
    ∃ t : Fin cfg2.N, (cfg2.win 9).flush t = true ∧ i ∈ ((cfg2.win 9).blk t).view.set := by
  have hi0 : (i 0).val < 65536 := idx2_lt0 i
  have hi1 : (i 1).val < 256 := idx2_lt1 i
  have hN : cfg2.N = 32 := N_2
  obtain ⟨t, ht⟩ : ∃ t : Fin cfg2.N, t.val = (i 0).val / 2048 := ⟨⟨(i 0).val / 2048, by rw [hN]; omega⟩, rfl⟩
  have e0 : win2_9.index t (0 : Fin 2) = t.val := (idx_facts t).2.2.1
  have e1 : win2_9.index t (1 : Fin 2) = 0 := (idx_facts t).2.2.2.1
  refine ⟨t, flush2_9 t, ?_⟩
  rw [mem_blk9]
  intro a
  match a with
  | ⟨0, _⟩ => show win2_9.index t 0 * 2048 ≤ (i 0).val ∧ (i 0).val < win2_9.index t 0 * 2048 + 2048; rw [e0, ht]; omega
  | ⟨1, _⟩ => show win2_9.index t 1 * 256 ≤ (i 1).val ∧ (i 1).val < win2_9.index t 1 * 256 + 256; rw [e1]; omega

/-- An entry of the array is in point t's block of window 10 iff each coordinate is in the block's range on its axis. -/
theorem mem_blk10 (t : Fin cfg2.N) (i : S65536x256.Idx) :
    i ∈ ((cfg2.win 10).blk t).view.set ↔ ∀ a : Fin 2, win2_10.index t a * S2048x256.size a ≤ (i a).val ∧ (i a).val < win2_10.index t a * S2048x256.size a + S2048x256.size a := by
  show i ∈ ((View.whole main_v27_1).slice (win2_10.rect t)).set ↔ _
  rw [View.set_slice_whole, Rect.mem_set_unit]
  exact Iff.rfl

/-- Row r of the array is in the block of point r / 2048, which is written back. -/
theorem cover10 (i : S65536x256.Idx) :
    ∃ t : Fin cfg2.N, (cfg2.win 10).flush t = true ∧ i ∈ ((cfg2.win 10).blk t).view.set := by
  have hi0 : (i 0).val < 65536 := idx2_lt0 i
  have hi1 : (i 1).val < 256 := idx2_lt1 i
  have hN : cfg2.N = 32 := N_2
  obtain ⟨t, ht⟩ : ∃ t : Fin cfg2.N, t.val = (i 0).val / 2048 := ⟨⟨(i 0).val / 2048, by rw [hN]; omega⟩, rfl⟩
  have e0 : win2_10.index t (0 : Fin 2) = t.val := (idx_facts t).2.2.2.2.1
  have e1 : win2_10.index t (1 : Fin 2) = 0 := (idx_facts t).2.2.2.2.2.1
  refine ⟨t, flush2_10 t, ?_⟩
  rw [mem_blk10]
  intro a
  match a with
  | ⟨0, _⟩ => show win2_10.index t 0 * 2048 ≤ (i 0).val ∧ (i 0).val < win2_10.index t 0 * 2048 + 2048; rw [e0, ht]; omega
  | ⟨1, _⟩ => show win2_10.index t 1 * 256 ≤ (i 1).val ∧ (i 1).val < win2_10.index t 1 * 256 + 256; rw [e1]; omega

/-! ## The two result arrays after the region -/

/-- The second result array ends holding the hyperbolic tangent of the normalised batch, entry by entry. -/
theorem final_raw (c : Dev nD) : (dat2 V c).arrAt 10 cfg2.N
    = fun i : S65536x256.Idx => Ideal.tanh (A0 V c i * A1 V c (ix2 0 (i 1)) + A2 V c (ix2 0 (i 1))) :=
  (dat2 V c).arrAt_eq_of_cover 10 (Graw V c) (fun t _ => flushed10_eq V c t) cover10

/-- The first result array ends holding the hyperbolic tangent of the three layers on each normalised row. -/
theorem final_out (c : Dev nD) : (dat2 V c).arrAt 9 cfg2.N
    = fun i : S65536x256.Idx => Ideal.tanh (Spec.layer (Spec.layer (Spec.layer
          (fun k => A0 V c (ix2 (i 0) k) * A1 V c (ix2 0 k) + A2 V c (ix2 0 k))
          (fun a k => A3 V c (ix2 k a)) (fun a => A4 V c (ix2 0 a)))
        (fun b a => A5 V c (ix2 a b)) (fun b => A6 V c (ix2 0 b)))
      (fun j b => A7 V c (ix2 b j)) (fun j => A8 V c (ix2 0 j)) (i 1)) :=
  (dat2 V c).arrAt_eq_of_cover 9 (Gout V c) (fun t _ => flushed9_eq V c t) cover9

end Cert.KernelIdeal.R2

end
-- ==== Proof.Glue3.lean ====
/-
  The kernel's two results as whole arrays: with the scale, the shift, the transposed weights and the bias rows the
  third call reads identified, each 2048-row block of its outputs is the specification's folded arrangement — the second
  result tanh(x·scale + shift), the first the three affine layers on that row followed by tanh.
-/
import proofs.«159674_j64699387347198_2_alg».proof.Proof.Glue2
import proofs.«159674_j64699387347198_2_alg».proof.Proof.Region2

noncomputable section

open Idealize.ShloMosaic Idealize.ShloMosaic.TcCoe Idealize.SL.Sem Idealize.ShloMosaic.StableHlo
open Idealize.ShloMosaic.Pipeline (Dat)

namespace Cert.KernelIdeal.Glue

open Cert.KernelIdeal Cert.KernelIdeal.Gen Idealize.ShloMosaic.ValueIdx Cert.KernelIdeal.HostStages

variable (m : (ℓ : Loc nD τ sig) → Buf (Elt Ideal) ℓ) (ρ : Dev nD → PrngReg) (c : Dev nD)

/-- The normalised entry the third call forms from its x block, scale and shift is the folded arrangement. -/
theorem xn_eq (r : Fin 65536) (k : Fin 256) :
    R2.A0 (V4 m ρ) c (ix2 r k) * R2.A1 (V4 m ρ) c (ix2 (0 : Fin 1) k) + R2.A2 (V4 m ρ) c (ix2 (0 : Fin 1) k)
      = Spec.xnFolded (Spec.m2 (X m c)) (Spec.m1 (Gm m c)) (Spec.m1 (Bt m c)) r k := by
  have e0 : R2.A0 (V4 m ρ) c = X m c := V4_arg0 m ρ c
  have e1 : R2.A1 (V4 m ρ) c (ix2 (0 : Fin 1) k) = Spec.scale (Spec.m2 (X m c)) (Spec.m1 (Gm m c)) k := scale_eq m ρ c k
  have e2 : R2.A2 (V4 m ρ) c (ix2 (0 : Fin 1) k) = Spec.shift (Spec.m2 (X m c)) (Spec.m1 (Gm m c)) (Spec.m1 (Bt m c)) k := shift_eq m ρ c k
  rw [e0, e1, e2]
  rfl

/-- The second result: tanh of the normalised batch, folded arrangement. -/
theorem kernel_raw : W5 m ρ c (Proc.devRef .tc main_v27_1)
    = fun i : S65536x256.Idx => Spec.raw (Spec.xnFolded (Spec.m2 (X m c)) (Spec.m1 (Gm m c)) (Spec.m1 (Bt m c))) (i 0) (i 1) := by
  refine ((W5_arr m ρ c 10).trans (R2.final_raw (V4 m ρ) c)).trans ?_
  funext i
  obtain ⟨r, d, rfl⟩ : ∃ (r : Fin 65536) (d : Fin 256), i = ix2 r d := ⟨i 0, i 1, eq_ix2 i⟩
  exact congrArg Ideal.tanh (xn_eq m ρ c r d)

/-- The first result: the three layers on each normalised row (folded arrangement), then tanh. -/
theorem kernel_out : W5 m ρ c (Proc.devRef .tc main_v27_0)
    = fun i : S65536x256.Idx => Spec.out (Spec.xnFolded (Spec.m2 (X m c)) (Spec.m1 (Gm m c)) (Spec.m1 (Bt m c)))
        (Spec.m2 (Wa m c)) (Spec.m1 (ba m c)) (Spec.m2 (Wb m c)) (Spec.m1 (bb m c)) (Spec.m2 (Wc m c)) (Spec.m1 (bc m c)) (i 0) (i 1) := by
  refine ((W5_arr m ρ c 9).trans (R2.final_out (V4 m ρ) c)).trans ?_
  funext i
  obtain ⟨r, j, rfl⟩ : ∃ (r : Fin 65536) (j : Fin 256), i = ix2 r j := ⟨i 0, i 1, eq_ix2 i⟩
  have h0 : (fun k : Fin 256 => R2.A0 (V4 m ρ) c (ix2 r k) * R2.A1 (V4 m ρ) c (ix2 (0 : Fin 1) k) + R2.A2 (V4 m ρ) c (ix2 (0 : Fin 1) k))
      = Spec.xnFolded (Spec.m2 (X m c)) (Spec.m1 (Gm m c)) (Spec.m1 (Bt m c)) r := funext fun k => xn_eq m ρ c r k
  have e3 : R2.A3 (V4 m ρ) c = wT1 (Wa m c) := W4_v19 m ρ c
  have e4 : R2.A4 (V4 m ρ) c = row1 (ba m c) := W4_v24 m ρ c
  have e5 : R2.A5 (V4 m ρ) c = wT2 (Wb m c) := W4_v21 m ρ c
  have e6 : R2.A6 (V4 m ρ) c = row2 (bb m c) := W4_v25 m ρ c
  have e7 : R2.A7 (V4 m ρ) c = wT3 (Wc m c) := W4_v23 m ρ c
  have e8 : R2.A8 (V4 m ρ) c = row3 (bc m c) := W4_v26 m ρ c
  have h3 : (fun (a : Fin 512) (k : Fin 256) => R2.A3 (V4 m ρ) c (ix2 k a)) = Spec.m2 (Wa m c) :=
    funext fun a => funext fun k => by rw [e3, wT1_apply]
  have h4 : (fun a : Fin 512 => R2.A4 (V4 m ρ) c (ix2 (0 : Fin 1) a)) = Spec.m1 (ba m c) := funext fun a => by rw [e4, row1_apply]
  have h5 : (fun (b : Fin 2048) (a : Fin 512) => R2.A5 (V4 m ρ) c (ix2 a b)) = Spec.m2 (Wb m c) :=
    funext fun b => funext fun a => by rw [e5, wT2_apply]
  have h6 : (fun b : Fin 2048 => R2.A6 (V4 m ρ) c (ix2 (0 : Fin 1) b)) = Spec.m1 (bb m c) := funext fun b => by rw [e6, row2_apply]
  have h7 : (fun (j : Fin 256) (b : Fin 2048) => R2.A7 (V4 m ρ) c (ix2 b j)) = Spec.m2 (Wc m c) :=
    funext fun j => funext fun b => by rw [e7, wT3_apply]
  have h8 : (fun j : Fin 256 => R2.A8 (V4 m ρ) c (ix2 (0 : Fin 1) j)) = Spec.m1 (bc m c) := funext fun j => by rw [e8, row3_apply]
  show Ideal.tanh (Spec.layer (Spec.layer (Spec.layer
      (fun k : Fin 256 => R2.A0 (V4 m ρ) c (ix2 r k) * R2.A1 (V4 m ρ) c (ix2 (0 : Fin 1) k) + R2.A2 (V4 m ρ) c (ix2 (0 : Fin 1) k))
      (fun (a : Fin 512) (k : Fin 256) => R2.A3 (V4 m ρ) c (ix2 k a)) (fun a : Fin 512 => R2.A4 (V4 m ρ) c (ix2 (0 : Fin 1) a)))
      (fun (b : Fin 2048) (a : Fin 512) => R2.A5 (V4 m ρ) c (ix2 a b)) (fun b : Fin 2048 => R2.A6 (V4 m ρ) c (ix2 (0 : Fin 1) b)))
      (fun (j : Fin 256) (b : Fin 2048) => R2.A7 (V4 m ρ) c (ix2 b j)) (fun j : Fin 256 => R2.A8 (V4 m ρ) c (ix2 (0 : Fin 1) j)) j) = _
  rw [h0, h3, h4, h5, h6, h7, h8]
  rfl

end Cert.KernelIdeal.Glue

end
-- ==== Proof.Algebra.lean ====
/-
  The two arrangements of the normalised entry agree on real inputs.

  With every entry of the batch, of γ and of β a real number, the batch mean and the biased variance are real
  numbers, the variance is non-negative (a sum of squares over a positive count), so max(σ², 0) = σ², and σ² + ε is
  positive, so its reciprocal square root is the real (√(σ² + ε))⁻¹. Both arrangements are then expressions in real
  numbers only, and x·(s·γ) + (β − μ·(s·γ)) = ((x − μ)·s)·γ + β is an identity of the real field.
-/
import proofs.«159674_j64699387347198_2_alg».proof.Proof.Spec

noncomputable section

namespace Cert.Spec

open Idealize.ShloMosaic

/-! ### The three words -/

/-- The batch-size word denotes the real 65536. -/
theorem nW_eq : nW = ((65536 : ℝ) : EReal) := by
  simp [nW, Ideal.ofBits, Ideal.ieee, -EReal.coe_mul]; norm_num

/-- The zero word denotes 0. -/
theorem zW_eq : zW = 0 := by
  simp [zW, Ideal.ofBits, Ideal.ieee]

/-- The guard word denotes a positive real. -/
theorem epsW_pos : ∃ e : ℝ, 0 < e ∧ epsW = (e : EReal) := by
  simp [epsW, Ideal.ofBits, Ideal.ieee, -EReal.coe_mul]

/-! ### Sums of reals -/

/-- A finite sum of real entries, taken in the extended reals, is the real sum. -/
theorem sum_coe {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-! ### Mean and variance of a real batch -/

/-- The mean of feature d of a real batch, as a real number. -/
def meanR (X : Fin 65536 → Fin 256 → ℝ) (d : Fin 256) : ℝ :=
  (∑ r : Fin 65536, X r d) * (1 / 65536)

/-- The biased variance of feature d of a real batch, as a real number. -/
def varR (X : Fin 65536 → Fin 256 → ℝ) (d : Fin 256) : ℝ :=
  (∑ r : Fin 65536, (X r d - meanR X d) * (X r d - meanR X d)) * (1 / 65536)

/-- The mean of a real batch is the real mean. -/
theorem mean_coe (X : Fin 65536 → Fin 256 → ℝ) (d : Fin 256) :
    mean (fun r d => ((X r d : ℝ) : EReal)) d = ((meanR X d : ℝ) : EReal) := by
  unfold mean meanR
  rw [nW_eq, Ideal.div_coe (by norm_num), sum_coe, ← EReal.coe_mul]

/-- The variance of a real batch is the real variance. -/
theorem var_coe (X : Fin 65536 → Fin 256 → ℝ) (d : Fin 256) :
    var (fun r d => ((X r d : ℝ) : EReal)) d = ((varR X d : ℝ) : EReal) := by
  unfold var varR
  rw [mean_coe, nW_eq, Ideal.div_coe (by norm_num)]
  simp only [← EReal.coe_sub, ← EReal.coe_mul]
  rw [sum_coe, ← EReal.coe_mul]

/-- The real variance is non-negative: a sum of squares times a positive number. -/
theorem varR_nonneg (X : Fin 65536 → Fin 256 → ℝ) (d : Fin 256) : 0 ≤ varR X d :=
  mul_nonneg (Finset.sum_nonneg fun _ _ => mul_self_nonneg _) (by norm_num)

/-- The variance of a real batch is non-negative in the extended reals. -/
theorem var_nonneg (X : Fin 65536 → Fin 256 → ℝ) (d : Fin 256) :
    (0 : EReal) ≤ var (fun r d => ((X r d : ℝ) : EReal)) d := by
  rw [var_coe]; exact_mod_cast varR_nonneg X d

/-- The clamp at zero does nothing to the variance of a real batch. -/
theorem max_var_zW (X : Fin 65536 → Fin 256 → ℝ) (d : Fin 256) :
    max (var (fun r d => ((X r d : ℝ) : EReal)) d) zW = var (fun r d => ((X r d : ℝ) : EReal)) d := by
  rw [zW_eq]; exact max_eq_left (var_nonneg X d)

/-- The reciprocal square root of σ² + ε for a real batch is the real (√(σ² + ε))⁻¹, with ε the positive real the
    guard word denotes. -/
theorem rsqrt_var_eps (X : Fin 65536 → Fin 256 → ℝ) (d : Fin 256) {e : ℝ} (he : 0 < e) (hE : epsW = (e : EReal)) :
    Ideal.rsqrt (var (fun r d => ((X r d : ℝ) : EReal)) d + epsW)
      = (((Real.sqrt (varR X d + e))⁻¹ : ℝ) : EReal) := by
  have hpos : 0 < varR X d + e := add_pos_of_nonneg_of_pos (varR_nonneg X d) he
  rw [var_coe, hE, ← EReal.coe_add, Ideal.rsqrt_coe, if_neg (not_lt.mpr hpos.le), if_neg hpos.ne']

/-! ### The two arrangements -/

/-- On a real batch with real γ and β the folded arrangement x·scale + shift is the direct one
    ((x − μ)·(σ² + ε)^(−1/2))·γ + β. -/
theorem xnFolded_eq_xnDirect (x : Fin 65536 → Fin 256 → EReal) (γ β : Fin 256 → EReal)
    (hx : ∀ r d, ∃ a : ℝ, x r d = (a : EReal)) (hγ : ∀ d, ∃ a : ℝ, γ d = (a : EReal))
    (hβ : ∀ d, ∃ a : ℝ, β d = (a : EReal)) : Spec.xnFolded x γ β = Spec.xnDirect x γ β := by
  choose X hX using hx
  choose G hG using hγ
  choose B hB using hβ
  obtain rfl : x = fun r d => ((X r d : ℝ) : EReal) := funext fun r => funext fun d => hX r d
  obtain ⟨e, he, hE⟩ := epsW_pos
  funext r d
  unfold xnFolded xnDirect shift scale
  rw [max_var_zW, rsqrt_var_eps X d he hE, mean_coe, hG d, hB d]
  simp only [← EReal.coe_mul, ← EReal.coe_add, ← EReal.coe_sub]
  congr 1
  ring

end Cert.Spec

end
-- ==== Proof.Glue4.lean ====
/-
  The kernel's two results in the direct arrangement: when every entry of x, γ and β is a real number the folded
  normalisation x·scale + shift is ((x − μ)·(σ² + ε)^(−1/2))·γ + β, so the kernel's results are the specification's.
-/
import proofs.«159674_j64699387347198_2_alg».proof.Proof.Glue3
import proofs.«159674_j64699387347198_2_alg».proof.Proof.Algebra

noncomputable section

open Idealize.ShloMosaic Idealize.ShloMosaic.TcCoe Idealize.SL.Sem

namespace Cert.KernelIdeal.Glue

open Cert.KernelIdeal Cert.KernelIdeal.Gen Idealize.ShloMosaic.ValueIdx

variable (m : (ℓ : Loc nD τ sig) → Buf (Elt Ideal) ℓ) (ρ : Dev nD → PrngReg) (c : Dev nD)

/-- The specification's first result as an array of the launched arguments. -/
def outSpec : S65536x256.Idx → EReal := fun i =>
  Spec.out (Spec.xnDirect (Spec.m2 (X m c)) (Spec.m1 (Gm m c)) (Spec.m1 (Bt m c)))
    (Spec.m2 (Wa m c)) (Spec.m1 (ba m c)) (Spec.m2 (Wb m c)) (Spec.m1 (bb m c)) (Spec.m2 (Wc m c)) (Spec.m1 (bc m c)) (i 0) (i 1)

/-- The specification's second result as an array of the launched arguments. -/
def rawSpec : S65536x256.Idx → EReal := fun i =>
  Spec.raw (Spec.xnDirect (Spec.m2 (X m c)) (Spec.m1 (Gm m c)) (Spec.m1 (Bt m c))) (i 0) (i 1)

/-- On real entries the two arrangements of the normalised batch agree. -/
theorem xn_direct (hx : ∀ i, ∃ a : ℝ, X m c i = (a : EReal)) (hγ : ∀ i, ∃ a : ℝ, Gm m c i = (a : EReal))
    (hβ : ∀ i, ∃ a : ℝ, Bt m c i = (a : EReal)) :
    Spec.xnFolded (Spec.m2 (X m c)) (Spec.m1 (Gm m c)) (Spec.m1 (Bt m c))
      = Spec.xnDirect (Spec.m2 (X m c)) (Spec.m1 (Gm m c)) (Spec.m1 (Bt m c)) :=
  Spec.xnFolded_eq_xnDirect _ _ _ (fun r d => hx (ix2 r d)) (fun d => hγ (ix1 d)) (fun d => hβ (ix1 d))

theorem kernel_out_direct (hx : ∀ i, ∃ a : ℝ, X m c i = (a : EReal)) (hγ : ∀ i, ∃ a : ℝ, Gm m c i = (a : EReal))
    (hβ : ∀ i, ∃ a : ℝ, Bt m c i = (a : EReal)) :
    W5 m ρ c (Proc.devRef .tc main_v27_0) = outSpec m c := by
  rw [kernel_out, xn_direct m c hx hγ hβ]
  rfl

theorem kernel_raw_direct (hx : ∀ i, ∃ a : ℝ, X m c i = (a : EReal)) (hγ : ∀ i, ∃ a : ℝ, Gm m c i = (a : EReal))
    (hβ : ∀ i, ∃ a : ℝ, Bt m c i = (a : EReal)) :
    W5 m ρ c (Proc.devRef .tc main_v27_1) = rawSpec m c := by
  rw [kernel_raw, xn_direct m c hx hγ hβ]
  rfl

end Cert.KernelIdeal.Glue

end
-- ==== Proof.RefValue.lean ====
/-
  The reference program's two results are the specification, index by index, in the direct arrangement:
  the normalised entry is ((x − μ)·(σ² + ε)^(−1/2))·γ + β with μ and σ² the batch mean and biased variance of the
  entry's feature, each affine layer is a sum over the input features of the row's entry times the weight stored as
  [outputs, inputs] plus the bias, and each result is the hyperbolic tangent of its argument.
-/
import proofs.«159674_j64699387347198_2_alg».proof.Proof.Gen.ReferenceIdeal.Read
import proofs.«159674_j64699387347198_2_alg».proof.Proof.Spec

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo
open Cert

/-! ## Index equations: the composed index maps of the program are the coordinate constructors -/

/-- Summing over the rows at feature d reads entry (k, d). -/
theorem idx_v0 (d : Fin 256) (k : Fin 65536) : idx_main_v0 (ValueIdx.ix1 d) k = ValueIdx.ix2 k d :=
  funext fun a => Fin.ext (by match a with | ⟨0, _⟩ => rfl | ⟨1, _⟩ => rfl)

theorem idx_v7 (d : Fin 256) (k : Fin 65536) : idx_main_v7 (ValueIdx.ix1 d) k = ValueIdx.ix2 k d :=
  funext fun a => Fin.ext (by match a with | ⟨0, _⟩ => rfl | ⟨1, _⟩ => rfl)

/-- A per-feature vector broadcast along the rows is read at the entry's feature. -/
theorem idx_v3_v4 (p : Fin 65536) (q : Fin 256) : idx_main_v3 (idx_main_v4 (ValueIdx.ix2 p q)) = ValueIdx.ix1 q :=
  funext fun a => Fin.ext (by match a with | ⟨0, _⟩ => rfl)
theorem idx_v10_v11 (p : Fin 65536) (q : Fin 256) : idx_main_v10 (idx_main_v11 (ValueIdx.ix2 p q)) = ValueIdx.ix1 q :=
  funext fun a => Fin.ext (by match a with | ⟨0, _⟩ => rfl)
theorem idx_v16_v17 (p : Fin 65536) (q : Fin 256) : idx_main_v16 (idx_main_v17 (ValueIdx.ix2 p q)) = ValueIdx.ix1 q :=
  funext fun a => Fin.ext (by match a with | ⟨0, _⟩ => rfl)
theorem idx_v19_v20 (p : Fin 65536) (q : Fin 256) : idx_main_v19 (idx_main_v20 (ValueIdx.ix2 p q)) = ValueIdx.ix1 q :=
  funext fun a => Fin.ext (by match a with | ⟨0, _⟩ => rfl)
theorem idx_v22_v23 (p : Fin 65536) (q : Fin 256) : idx_main_v22 (idx_main_v23 (ValueIdx.ix2 p q)) = ValueIdx.ix1 q :=
  funext fun a => Fin.ext (by match a with | ⟨0, _⟩ => rfl)

variable (x0 : (⟨S65536x256, .f32⟩ : BufTy).Contents (Elt Ideal)) (x1 x2 : (⟨S256, .f32⟩ : BufTy).Contents (Elt Ideal))

/-! ## The batch statistics -/

/-- The program's mean of feature d is the specification's. -/
theorem mean_at (d : Fin 256) : val_main_v2 (F := Ideal) x0 (ValueIdx.ix1 d) = Spec.mean (Spec.m2 x0) d := by
  rw [val_main_v2_apply, val_main_v0_apply, val_main_v1_apply, val_main_cst_apply, val_main_cst_0_apply]
  simp only [Ideal.hostDivf_def, Ideal.ofBits_def, Ideal.ofBits_zero_f32, zero_add, idx_v0]
  rfl

/-- The deviation from the mean, as the program computes it for the variance. -/
theorem dev_at (p : Fin 65536) (q : Fin 256) :
    val_main_v5 (F := Ideal) x0 (ValueIdx.ix2 p q) = x0 (ValueIdx.ix2 p q) - Spec.mean (Spec.m2 x0) q := by
  rw [val_main_v5_apply, val_main_v4_apply, val_main_v3_apply, idx_v3_v4, mean_at]
  rfl

/-- The program's biased variance of feature d is the specification's. -/
theorem var_at (d : Fin 256) : val_main_v9 (F := Ideal) x0 (ValueIdx.ix1 d) = Spec.var (Spec.m2 x0) d := by
  rw [val_main_v9_apply, val_main_v7_apply, val_main_v8_apply, val_main_cst_1_apply, val_main_cst_2_apply]
  simp only [Ideal.hostDivf_def, Ideal.ofBits_def, Ideal.ofBits_zero_f32, zero_add, idx_v7, val_main_v6_apply, dev_at,
    Ideal.mulf_def]
  rfl

/-! ## The normalised entry -/

/-- The program's normalised entry at (p, q) is the direct arrangement. -/
theorem xn_at (p : Fin 65536) (q : Fin 256) :
    val_main_v24 (F := Ideal) x0 x1 x2 (ValueIdx.ix2 p q) = Spec.xnDirect (Spec.m2 x0) (Spec.m1 x1) (Spec.m1 x2) p q := by
  rw [val_main_v24_apply, val_main_v21_apply, val_main_v18_apply, val_main_v12_apply, val_main_v11_apply,
    val_main_v10_apply, idx_v10_v11, mean_at, val_main_v17_apply, val_main_v16_apply, idx_v16_v17, val_main_v15_apply,
    val_main_v14_apply, var_at, val_main_v13_apply, val_main_cst_3_apply, val_main_v20_apply, val_main_v19_apply,
    idx_v19_v20, val_main_v23_apply, val_main_v22_apply, idx_v22_v23]
  simp only [Ideal.addf_def, Ideal.subf_def, Ideal.mulf_def, Ideal.hostUnary_rsqrt_def, Ideal.ofBits_def]
  rfl

/-- The second result: the hyperbolic tangent of the normalised batch. -/
theorem ref_raw :
    val_main_v25 (F := Ideal) x0 x1 x2
      = fun i => Spec.raw (Spec.xnDirect (Spec.m2 x0) (Spec.m1 x1) (Spec.m1 x2)) (i 0) (i 1) := by
  funext i
  obtain ⟨p, q, rfl⟩ : ∃ (p : Fin 65536) (q : Fin 256), i = ValueIdx.ix2 p q := ⟨i 0, i 1, ValueIdx.eq_ix2 i⟩
  rw [val_main_v25_apply, xn_at]
  rfl

/-! ## The affine layers -/

/-- The left operand of a layer's contraction is read at the entry's row and the summed feature. -/
theorem lidx_v27 (p : Fin 65536) (a : Fin 512) (k : Fin 256) : lidx_main_v27 (ValueIdx.ix2 p a) k = ValueIdx.ix2 p k :=
  funext fun c => Fin.ext (by match c with | ⟨0, _⟩ => rfl | ⟨1, _⟩ => rfl)
theorem lidx_v32 (p : Fin 65536) (b : Fin 2048) (k : Fin 512) : lidx_main_v32 (ValueIdx.ix2 p b) k = ValueIdx.ix2 p k :=
  funext fun c => Fin.ext (by match c with | ⟨0, _⟩ => rfl | ⟨1, _⟩ => rfl)
theorem lidx_v37 (p : Fin 65536) (j : Fin 256) (k : Fin 2048) : lidx_main_v37 (ValueIdx.ix2 p j) k = ValueIdx.ix2 p k :=
  funext fun c => Fin.ext (by match c with | ⟨0, _⟩ => rfl | ⟨1, _⟩ => rfl)

/-- The transposed weight read at (summed feature, output feature) is the stored weight at (output feature, summed feature). -/
theorem widx_v27 (p : Fin 65536) (a : Fin 512) (k : Fin 256) :
    idx_main_v26 (ridx_main_v27 (ValueIdx.ix2 p a) k) = ValueIdx.ix2 a k :=
  funext fun c => Fin.ext (by match c with | ⟨0, _⟩ => rfl | ⟨1, _⟩ => rfl)
theorem widx_v32 (p : Fin 65536) (b : Fin 2048) (k : Fin 512) :
    idx_main_v31 (ridx_main_v32 (ValueIdx.ix2 p b) k) = ValueIdx.ix2 b k :=
  funext fun c => Fin.ext (by match c with | ⟨0, _⟩ => rfl | ⟨1, _⟩ => rfl)
theorem widx_v37 (p : Fin 65536) (j : Fin 256) (k : Fin 2048) :
    idx_main_v36 (ridx_main_v37 (ValueIdx.ix2 p j) k) = ValueIdx.ix2 j k :=
  funext fun c => Fin.ext (by match c with | ⟨0, _⟩ => rfl | ⟨1, _⟩ => rfl)

/-- A bias broadcast along the rows is read at the entry's output feature. -/
theorem bidx_v29 (p : Fin 65536) (a : Fin 512) : idx_main_v28 (idx_main_v29 (ValueIdx.ix2 p a)) = ValueIdx.ix1 a :=
  funext fun c => Fin.ext (by match c with | ⟨0, _⟩ => rfl)
theorem bidx_v34 (p : Fin 65536) (b : Fin 2048) : idx_main_v33 (idx_main_v34 (ValueIdx.ix2 p b)) = ValueIdx.ix1 b :=
  funext fun c => Fin.ext (by match c with | ⟨0, _⟩ => rfl)
theorem bidx_v39 (p : Fin 65536) (j : Fin 256) : idx_main_v38 (idx_main_v39 (ValueIdx.ix2 p j)) = ValueIdx.ix1 j :=
  funext fun c => Fin.ext (by match c with | ⟨0, _⟩ => rfl)

variable (x3 : (⟨S512x256, .f32⟩ : BufTy).Contents (Elt Ideal)) (x4 : (⟨S512, .f32⟩ : BufTy).Contents (Elt Ideal))
  (x5 : (⟨S2048x512, .f32⟩ : BufTy).Contents (Elt Ideal)) (x6 : (⟨S2048, .f32⟩ : BufTy).Contents (Elt Ideal))
  (x7 : (⟨S256x2048, .f32⟩ : BufTy).Contents (Elt Ideal)) (x8 : (⟨S256, .f32⟩ : BufTy).Contents (Elt Ideal))

/-- The first layer (256 → 512) on the normalised row p. -/
theorem layer1_at (p : Fin 65536) (a : Fin 512) :
    val_main_v30 (F := Ideal) x0 x1 x2 x3 x4 (ValueIdx.ix2 p a)
      = Spec.layer (Spec.xnDirect (Spec.m2 x0) (Spec.m1 x1) (Spec.m1 x2) p) (Spec.m2 x3) (Spec.m1 x4) a := by
  rw [val_main_v30_apply, val_main_v27_apply, val_main_v29_apply, val_main_v28_apply, bidx_v29]
  simp only [Ideal.addf_def, lidx_v27, val_main_v26_apply, widx_v27, xn_at]
  rfl

/-- The second layer (512 → 2048). -/
theorem layer2_at (p : Fin 65536) (b : Fin 2048) :
    val_main_v35 (F := Ideal) x0 x1 x2 x3 x4 x5 x6 (ValueIdx.ix2 p b)
      = Spec.layer (Spec.layer (Spec.xnDirect (Spec.m2 x0) (Spec.m1 x1) (Spec.m1 x2) p) (Spec.m2 x3) (Spec.m1 x4))
          (Spec.m2 x5) (Spec.m1 x6) b := by
  rw [val_main_v35_apply, val_main_v32_apply, val_main_v34_apply, val_main_v33_apply, bidx_v34]
  simp only [Ideal.addf_def, lidx_v32, val_main_v31_apply, widx_v32, layer1_at]
  rfl

/-- The third layer (2048 → 256): the logits. -/
theorem layer3_at (p : Fin 65536) (j : Fin 256) :
    val_main_v40 (F := Ideal) x0 x1 x2 x3 x4 x5 x6 x7 x8 (ValueIdx.ix2 p j)
      = Spec.logits (Spec.xnDirect (Spec.m2 x0) (Spec.m1 x1) (Spec.m1 x2) p) (Spec.m2 x3) (Spec.m1 x4) (Spec.m2 x5)
          (Spec.m1 x6) (Spec.m2 x7) (Spec.m1 x8) j := by
  rw [val_main_v40_apply, val_main_v37_apply, val_main_v39_apply, val_main_v38_apply, bidx_v39]
  simp only [Ideal.addf_def, lidx_v37, val_main_v36_apply, widx_v37, layer2_at]
  rfl

/-- The first result: the hyperbolic tangent of the three layers on the normalised batch. -/
theorem ref_out :
    val_main_v41 (F := Ideal) x0 x1 x2 x3 x4 x5 x6 x7 x8
      = fun i => Spec.out (Spec.xnDirect (Spec.m2 x0) (Spec.m1 x1) (Spec.m1 x2)) (Spec.m2 x3) (Spec.m1 x4) (Spec.m2 x5)
          (Spec.m1 x6) (Spec.m2 x7) (Spec.m1 x8) (i 0) (i 1) := by
  funext i
  obtain ⟨p, j, rfl⟩ : ∃ (p : Fin 65536) (j : Fin 256), i = ValueIdx.ix2 p j := ⟨i 0, i 1, ValueIdx.eq_ix2 i⟩
  rw [val_main_v41_apply, layer3_at]
  rfl

end Cert.ReferenceIdeal.RefValue

end
-- ==== Proof.Finite.lean ====
/-
  What the precondition says of the nine argument arrays: every entry is a real number.

  The precondition is the conjunction, over the nine arrays, of "every entry x has |x| < +∞", each taken as a
  reduction by "and" over the whole array of the entrywise comparison. A reduction by "and" that came out 1 met a 1 at
  every entry; |x| is max(x, −x) on the extended reals, and max(x, −x) < +∞ rules out both infinities (at −∞ the
  maximum is +∞ as well), leaving x real.
-/
import proofs.«159674_j64699387347198_2_alg».proof.Defs
import Idealize.ShloMosaic.Lib.ReduceAll
import Idealize.ShloMosaic.Lib.ValueIdx

noncomputable section

namespace Cert.Finite

open Idealize.ShloMosaic
open Cert.Pre_finite_inputs (S65536x256 S256 S512x256 S512 S2048x512 S2048 S256x2048 S_)

/-- The word the entries are compared against denotes +∞. -/
theorem top_word : Ideal.ofBits .f32 0x7F800000#32 = (⊤ : EReal) := by
  simp [Ideal.ofBits, Ideal.ieee]

/-- An extended real whose absolute value max(x, −x) is below +∞ is a real number. -/
theorem real_of_abs_lt_top (x : EReal)
    (h : Ideal.cmp .olt (max x (-x)) (Ideal.ofBits .f32 0x7F800000#32) = 1#1) : ∃ r : ℝ, x = (r : EReal) := by
  rw [top_word] at h
  induction x using EReal.rec with
  | bot => simp [Ideal.cmp] at h
  | coe r => exact ⟨r, rfl⟩
  | top => simp [Ideal.cmp] at h

/-- The rank-0 shape has one index. -/
instance : Subsingleton S_.Idx := ⟨fun a b => funext fun d => d.elim0⟩

/-- One array's conjunct: if "every entry has |x| < +∞", reduced by "and" over all axes, is 1, then every entry of the
    array is a real number. -/
theorem real_of_all {s : Shape} {axes : List (Fin s.rank)} (a : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
          (cmpf .olt (Host.absf a) (broadcastInDim s ![] hb (constant (F := Ideal) S_ .f32 0x7F800000#32))) init hr hu j
        = 1#1)
    (i : s.Idx) : ∃ r : ℝ, a i = (r : EReal) :=
  real_of_abs_lt_top (a i) (Host.reduce_andi_all _ init hr hu j e i)

/-- The precondition on nine arrays gives nine arrays of real numbers. -/
theorem real_of_pre [Cert.Pre_finite_inputs.Facts]
    (a0 : FVec Ideal S65536x256 .f32) (a1 a2 : FVec Ideal S256 .f32) (a3 : FVec Ideal S512x256 .f32)
    (a4 : FVec Ideal S512 .f32) (a5 : FVec Ideal S2048x512 .f32) (a6 : FVec Ideal S2048 .f32)
    (a7 : FVec Ideal S256x2048 .f32) (a8 : FVec Ideal S256 .f32)
    (h : Cert.Pre_finite_inputs.fn (F := Ideal) a0 a1 a2 a3 a4 a5 a6 a7 a8 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) ∧ (∀ i, ∃ r : ℝ, a8 i = (r : EReal)) := by
  have h0 := congrFun h ValueIdx.ix0
  dsimp only [Cert.Pre_finite_inputs.fn, Cert.Pre_finite_inputs.fn_part1, Cert.Pre_finite_inputs.fn_part2] at h0
  simp only [andi, IntOp.andi_eq_one] at h0
  obtain ⟨⟨⟨⟨⟨⟨⟨⟨e0, e1⟩, e2⟩, e3⟩, e4⟩, e5⟩, e6⟩, e7⟩, e8⟩ := h0
  exact ⟨real_of_all a0 _ _ _ _ _ e0, real_of_all a1 _ _ _ _ _ e1, real_of_all a2 _ _ _ _ _ e2,
    real_of_all a3 _ _ _ _ _ e3, real_of_all a4 _ _ _ _ _ e4, real_of_all a5 _ _ _ _ _ e5,
    real_of_all a6 _ _ _ _ _ e6, real_of_all a7 _ _ _ _ _ e7, real_of_all a8 _ _ _ _ _ e8⟩

end Cert.Finite

end
-- ==== Proof.lean ====
/-
  A batch-normalised three-layer perceptron on f32[65536, 256]: the kernel against its reference, over the extended reals.

  Both programs compute, from x and the parameters, the feature-wise batch mean μ and biased variance σ², the normalised
  batch xn, the second result tanh(xn), and the first result tanh(((xn·W1ᵀ + b1)·W2ᵀ + b2)·Wfᵀ + bf).

  The reference forms xn = ((x − μ)·(σ² + ε)^(−1/2))·γ + β with μ and σ² sums over all 65536 rows divided by 65536.
  The kernel gets the same sums from two accumulating calls (two cores, four 8192-row blocks each, every core's
  accumulator started from zero, the two cores' totals added afterwards), guards the variance by max(·, 0), folds the
  normalisation into xn = x·scale + shift with scale = (max(σ², 0) + ε)^(−1/2)·γ and shift = β − μ·scale, and runs the
  three layers per 2048-row block with the weights transposed beforehand.

  The sums agree because addition of extended reals is commutative and associative; the variance is a sum of squares
  of reals over a positive number, so the guard is the identity; and the fold is the distributive law, which holds
  because every entry of x, γ and β is a real number — the one place the precondition is used. The layers and the
  hyperbolic tangents are the same functions of the same rows on both sides; changes of float format are the identity.

  The remaining claims say that each of the three programs terminates without a fault and leaves its argument arrays
  as they were launched, and that the idealised kernel differs from the kernel by no rewrite at all, so that there is
  nothing to preserve.
-/
import proofs.«159674_j64699387347198_2_alg».proof.Defs
import proofs.«159674_j64699387347198_2_alg».proof.Proof.Gen.Kernel
import proofs.«159674_j64699387347198_2_alg».proof.Proof.Gen.Kernel.Skeleton
import proofs.«159674_j64699387347198_2_alg».proof.Proof.Gen.Kernel.Launch
import proofs.«159674_j64699387347198_2_alg».proof.Proof.Gen.Kernel.Points
import proofs.«159674_j64699387347198_2_alg».proof.Proof.Gen.Kernel.Frame
import proofs.«159674_j64699387347198_2_alg».proof.Proof.Gen.KernelIdeal
import proofs.«159674_j64699387347198_2_alg».proof.Proof.Gen.KernelIdeal.Skeleton
import proofs.«159674_j64699387347198_2_alg».proof.Proof.Gen.KernelIdeal.Launch
import proofs.«159674_j64699387347198_2_alg».proof.Proof.Gen.KernelIdeal.Points
import proofs.«159674_j64699387347198_2_alg».proof.Proof.Gen.KernelIdeal.Frame
import proofs.«159674_j64699387347198_2_alg».proof.Proof.Gen.ReferenceIdeal
import proofs.«159674_j64699387347198_2_alg».proof.Proof.Gen.Pre_finite_inputs
import proofs.«159674_j64699387347198_2_alg».proof.Proof.Gen.ReferenceIdeal.Run
import proofs.«159674_j64699387347198_2_alg».proof.Proof.Gen.ReferenceIdeal.Read
import proofs.«159674_j64699387347198_2_alg».proof.Proof.KernelRun
import proofs.«159674_j64699387347198_2_alg».proof.Proof.Glue4
import proofs.«159674_j64699387347198_2_alg».proof.Proof.RefValue
import proofs.«159674_j64699387347198_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories agreeing on the arguments, both programs end with the specification's two results of those
    arguments: the kernel by its run, the three calls' arrays and the fold (on real entries), the reference by its run
    read one operation at a time. -/
theorem algebraic : Cert.algebraic_KernelIdeal_ReferenceIdeal := by
  intro m ρ m' ρ' hpre hagree
  refine ⟨fun c => Cert.KernelIdeal.Glue.outSpec m c, fun c => Cert.KernelIdeal.Glue.rawSpec m c, ?_, ?_⟩
  · refine (θ_run Cert.KernelIdeal.defs _ _).mono (fun r h c => ?_) (Cert.KernelIdeal.Run.run_results (F := Ideal) m ρ)
    obtain ⟨h0, h1, hargs⟩ := h c
    obtain ⟨hx, hγ, hβ, -⟩ := Cert.Finite.real_of_pre _ _ _ _ _ _ _ _ _ (hpre c)
    exact ⟨h0.trans (Cert.KernelIdeal.Glue.kernel_out_direct m ρ c hx hγ hβ),
      h1.trans (Cert.KernelIdeal.Glue.kernel_raw_direct m ρ c hx hγ hβ), hargs⟩
  · refine (θ_run Cert.ReferenceIdeal.defs _ _).mono (fun r h c => ?_) (Cert.ReferenceIdeal.Value.run (F := Ideal) m' ρ')
    obtain ⟨h0, h1, hargs⟩ := h c
    obtain ⟨a0, a1, a2, a3, a4, a5, a6, a7, a8⟩ := hagree c
    refine ⟨h0.trans ?_, h1.trans ?_, hargs⟩
    · rw [Cert.ReferenceIdeal.Read.val_main_v41_eq, Cert.ReferenceIdeal.RefValue.ref_out, a0, a1, a2, a3, a4, a5, a6, a7, a8]
      rfl
    · rw [Cert.ReferenceIdeal.Read.val_main_v25_eq, Cert.ReferenceIdeal.RefValue.ref_raw, a0, a1, a2]
      rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
